-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S100000x64 : Shape := ⟨2, ![100000, 64]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg9 : FVec F S64 .f32) (main_arg10 : FVec F S128x64 .f32) (main_arg11 : FVec F S128x64 .f32) (main_arg12 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S128x64 .f32 := Host.absf main_arg11
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg6 : FVec F S128 .f32) (main_arg7 : FVec F S128x64 .f32) (main_arg8 : FVec F S128x64 .f32) (main_arg9 : FVec F S64 .f32) (main_arg10 : FVec F S128x64 .f32) (main_arg11 : FVec F S128x64 .f32) (main_arg12 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S128x64 .f32 := Host.absf main_arg8
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S1600000 32) (main_arg2 : IVec S1600000 32) (main_arg3 : FVec F S100000x64 .f32) (main_arg4 : FVec F S128x128 .f32) (main_arg5 : FVec F S128x128 .f32) (main_arg6 : FVec F S128 .f32) (main_arg7 : FVec F S128x64 .f32) (main_arg8 : FVec F S128x64 .f32) (main_arg9 : FVec F S64 .f32) (main_arg10 : FVec F S128x64 .f32) (main_arg11 : FVec F S128x64 .f32) (main_arg12 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x64 .f32 := Host.absf main_arg3
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S1600000 : Shape := ⟨1, ![1600000]⟩
abbrev S100000x64 : Shape := ⟨2, ![100000, 64]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S2000x128 : Shape := ⟨2, ![2000, 128]⟩
abbrev S2000x1 : Shape := ⟨2, ![2000, 1]⟩
abbrev S2000x64 : Shape := ⟨2, ![2000, 64]⟩

abbrev nBuf : Space → Nat
  | .hbm => 62
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S100000x64, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S128x64, .f32⟩
  | .hbm, ⟨9, _⟩ => ⟨S64, .f32⟩
  | .hbm, ⟨10, _⟩ => ⟨S128x64, .f32⟩
  | .hbm, ⟨11, _⟩ => ⟨S128x64, .f32⟩
  | .hbm, ⟨12, _⟩ => ⟨S64, .f32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x128, .bf16⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .bf16⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S1x128, .f32⟩
  | .hbm, ⟨42, _⟩ => ⟨S100000x128, .bf16⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .bf16⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S128x128, .f32⟩
  | .hbm, ⟨58, _⟩ => ⟨S128x128, .f32⟩
  | .hbm, ⟨59, _⟩ => ⟨S128, .f32⟩
  | .hbm, ⟨60, _⟩ => ⟨S1x128, .f32⟩
  | .hbm, ⟨61, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S2000x128, .bf16⟩
  | .local _ .vmem, ⟨10, _⟩ => ⟨S2000x128, .bf16⟩
  | .local _ .vmem, ⟨11, _⟩ => ⟨S2000x128, .bf16⟩
  | .local _ .vmem, ⟨12, _⟩ => ⟨S2000x128, .bf16⟩
  | .local _ .vmem, ⟨13, _⟩ => ⟨S2000x128, .f32⟩
  | .local _ .vmem, ⟨14, _⟩ => ⟨S2000x128, .f32⟩
  | .local _ .vmem, ⟨15, _⟩ => ⟨S2000x1, .f32⟩
  | .local _ .vmem, ⟨16, _⟩ => ⟨S2000x1, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst_1 : Ref sig .tc := ⟨.hbm, 19, rfl⟩
abbrev main_v4 : Ref sig .tc := ⟨.hbm, 20, rfl⟩
abbrev main_v5 : Ref sig .tc := ⟨.hbm, 21, rfl⟩
abbrev main_cst_2 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_c : Ref sig .tc := ⟨.hbm, 27, rfl⟩
abbrev main_v10 : Ref sig .tc := ⟨.hbm, 28, rfl⟩
abbrev main_v11 : Ref sig .tc := ⟨.hbm, 29, rfl⟩
abbrev main_c_3 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_c_6 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_7 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bitsLt_bf16_f32 : FTy.bits .bf16 < FTy.bits .f32
  bcast_S_S100000x128 : S_.BroadcastsInDim S100000x128 (![] : Fin 0 → Fin S100000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  packedbf16_S2000x128_S2000x128_0_0 : (Rect.unit (s := S2000x128) ![0, 0] S2000x128.size inb_S2000x128_S2000x128_0_0).PackedRows (EltTy.packing .bf16)
  concatenates_S128x64_S128x64_S128x128_d1 : Shape.Concatenates [S128x64, S128x64] S128x128 1
  concatenates_S64_S64_S128_d0 : Shape.Concatenates [S64, S64] S128 0
  shapeCasts_S128x128_S128x128 : S128x128.ShapeCasts S128x128
  slices_S2000x128_o0_0_S2000x64 : S2000x128.Slices ![0, 0] S2000x64
  slices_S2000x128_o0_64_S2000x64 : S2000x128.Slices ![0, 64] S2000x64
  inb_S2000x64_S2000x64_0_0 : ∀ a, (![0, 0] : Fin 2 → Nat) a + S2000x64.size a ≤ S2000x64.size a
  h_S2000x64 : 0 < S2000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .bf16 = 32 ∨ (Rect.block (s := S100000x128) S2000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .bf16 = 32 ∨ (Rect.block (s := S100000x128) S2000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x64.size a ≤ S100000x64.size a
  hwx1_6 : ∀ i : grid1.Coords, EltTy.bits .f32 = 32 ∨ (Rect.block (s := S100000x64) S2000x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x64.size a ≤ S100000x64.size a
  hwx1_7 : ∀ i : grid1.Coords, EltTy.bits .f32 = 32 ∨ (Rect.block (s := S100000x64) S2000x64.size (cc1_transform_7 i) (hinb1_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v22) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v34) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg3) S2000x64.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v38) S2000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S100000x64 : Shape := ⟨2, ![100000, 64]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S1x64 : Shape := ⟨2, ![1, 64]⟩

abbrev nBuf : Space → Nat
  | .hbm => 112
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S100000x64, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S128x64, .f32⟩
  | .hbm, ⟨9, _⟩ => ⟨S64, .f32⟩
  | .hbm, ⟨10, _⟩ => ⟨S128x64, .f32⟩
  | .hbm, ⟨11, _⟩ => ⟨S128x64, .f32⟩
  | .hbm, ⟨12, _⟩ => ⟨S64, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S_, .f32⟩
  | .hbm, ⟨27, _⟩ => ⟨S1600000, .f32⟩
  | .hbm, ⟨28, _⟩ => ⟨S_, .f32⟩
  | .hbm, ⟨29, _⟩ => ⟨S100000, .f32⟩
  | .hbm, ⟨30, _⟩ => ⟨S1600000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S100000x128, .f32⟩
  | .hbm, ⟨44, _⟩ => ⟨S_, .f32⟩
  | .hbm, ⟨45, _⟩ => ⟨S100000x128, .f32⟩
  | .hbm, ⟨46, _⟩ => ⟨S100000x128, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S_, .f32⟩
  | .hbm, ⟨61, _⟩ => ⟨S1600000, .f32⟩
  | .hbm, ⟨62, _⟩ => ⟨S_, .f32⟩
  | .hbm, ⟨63, _⟩ => ⟨S100000, .f32⟩
  | .hbm, ⟨64, _⟩ => ⟨S1600000x1, .i32⟩
  | .hbm, ⟨65, _⟩ => ⟨S100000, .f32⟩
  | .hbm, ⟨66, _⟩ => ⟨S_, .f32⟩
  | .hbm, ⟨67, _⟩ => ⟨S100000, .f32⟩
  | .hbm, ⟨68, _⟩ => ⟨S100000, .f32⟩
  | .hbm, ⟨69, _⟩ => ⟨S100000x1, .f32⟩
  | .hbm, ⟨70, _⟩ => ⟨S100000x128, .f32⟩
  | .hbm, ⟨71, _⟩ => ⟨S100000x128, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | .hbm, ⟨78, _⟩ => ⟨S_, .i32⟩
  | .hbm, ⟨79, _⟩ => ⟨S1600000, .i32⟩
  | .hbm, ⟨80, _⟩ => ⟨S1600000, .i1⟩
  | .hbm, ⟨81, _⟩ => ⟨S_, .i32⟩
  | .hbm, ⟨82, _⟩ => ⟨S1600000, .i32⟩
  | .hbm, ⟨83, _⟩ => ⟨S1600000, .i32⟩
  | .hbm, ⟨84, _⟩ => ⟨S1600000, .i32⟩
  | .hbm, ⟨85, _⟩ => ⟨S1600000x1, .i32⟩
  | .hbm, ⟨86, _⟩ => ⟨S1600000x128, .f32⟩
  | .hbm, ⟨87, _⟩ => ⟨S_, .f32⟩
  | .hbm, ⟨88, _⟩ => ⟨S100000x128, .f32⟩
  | .hbm, ⟨89, _⟩ => ⟨S1600000x1, .i32⟩
  | .hbm, ⟨90, _⟩ => ⟨S100000x128, .f32⟩
  | .hbm, ⟨91, _⟩ => ⟨S_, .f32⟩
  | .hbm, ⟨92, _⟩ => ⟨S1600000, .f32⟩
  | .hbm, ⟨93, _⟩ => ⟨S_, .f32⟩
  | .hbm, ⟨94, _⟩ => ⟨S100000, .f32⟩
  | .hbm, ⟨95, _⟩ => ⟨S1600000x1, .i32⟩
  | .hbm, ⟨96, _⟩ => ⟨S100000, .f32⟩
  | .hbm, ⟨97, _⟩ => ⟨S_, .f32⟩
  | .hbm, ⟨98, _⟩ => ⟨S100000, .f32⟩
  | .hbm, ⟨99, _⟩ => ⟨S100000, .f32⟩
  | .hbm, ⟨100, _⟩ => ⟨S100000x1, .f32⟩
  | .hbm, ⟨101, _⟩ => ⟨S100000x128, .f32⟩
  | .hbm, ⟨102, _⟩ => ⟨S100000x128, .f32⟩
  | .hbm, ⟨103, _⟩ => ⟨S100000x64, .f32⟩
  | .hbm, ⟨104, _⟩ => ⟨S100000x64, .f32⟩
  | .hbm, ⟨105, _⟩ => ⟨S100000x64, .f32⟩
  | .hbm, ⟨106, _⟩ => ⟨S1x64, .f32⟩
  | .hbm, ⟨107, _⟩ => ⟨S100000x64, .f32⟩
  | .hbm, ⟨108, _⟩ => ⟨S100000x64, .f32⟩
  | .hbm, ⟨109, _⟩ => ⟨S100000x64, .f32⟩
  | .hbm, ⟨110, _⟩ => ⟨S100000x64, .f32⟩
  | .hbm, ⟨111, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_call0_cst : Ref sig .tc := ⟨.hbm, 44, rfl⟩
abbrev main_call0_v0 : Ref sig .tc := ⟨.hbm, 45, rfl⟩
abbrev main_v25 : Ref sig .tc := ⟨.hbm, 46, rfl⟩
abbrev main_c_4 : Ref sig .tc := ⟨.hbm, 47, rfl⟩
abbrev main_v26 : Ref sig .tc := ⟨.hbm, 48, rfl⟩
abbrev main_v27 : Ref sig .tc := ⟨.hbm, 49, rfl⟩
abbrev main_c_5 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_6 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_7 : Ref sig .tc := ⟨.hbm, 60, rfl⟩
abbrev main_v36 : Ref sig .tc := ⟨.hbm, 61, rfl⟩
abbrev main_cst_8 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_9 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_c_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_12 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_13 : Ref sig .tc := ⟨.hbm, 91, rfl⟩
abbrev main_v61 : Ref sig .tc := ⟨.hbm, 92, rfl⟩
abbrev main_cst_14 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_15 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel's run with its RESULT named.

  @main is four segments in order: host operations, the first tiled call, host operations, the second tiled call.
  The buffer contents at each boundary are a fold from the launch memory: W1 after the first host stretch, W2 with the
  first call's arrays at what its write-backs leave, W3 after the second host stretch, W4 with the second call's
  arrays at what its write-backs leave. When the run ends every unscoped buffer holds what W4 says; the frame claim
  reads off the thirteen arguments, and here the result array `main_v38` is read off too. What W4 holds there, as a
  function of the arguments, is the business of the modules that open the two calls and the two host stretches.
-/
import proofs.«136242_j24000277250672_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; in the final state the result array holds the
    last boundary's contents `W4` at `main_v38`, and every argument array is as launched. -/
theorem run_main : θ_run defs (onTc (τ := τ) (main (F := F))) ⟨m, fun _ => 0, ρ⟩ (fun r => ∀ c : Dev nD,
      r.2.mem ((c.tc : Thread nD τ).loc main_v38) = W4 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v38 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c)⟩)

end Cert.KernelIdeal.RunValue

end
-- ==== Proof.HostValue.lean ====
/-
  The two stretches of host operations around the tiled calls, read as values of the launch memory.

  Before the first call the host builds, from the edge lists: the in-degree of every node clipped below at 1 and its
  reciprocal as a column; the sum over incoming edges of the source nodes' feature rows; and the first bias as a 1 × 128
  row. Between the calls it builds the same neighbour sum of the hidden layer the first call wrote, the two pairs of
  64-wide weight matrices side by side, and the two biases end to end as a 1 × 128 row. No host operation and neither
  call writes an argument, so every argument read at any boundary is the launch memory's. The gather along edges and the
  scatter-add into nodes are never opened: they are the operations the reference applies, to the same operands.
-/
import proofs.«136242_j24000277250672_2_alg».proof.Proof.Gen.KernelIdeal.Frame
import proofs.«136242_j24000277250672_2_alg».proof.Proof.Gen.ReferenceIdeal.Read
import Idealize.ShloMosaic.PureOps.Ideal
import Idealize.ShloMosaic.Lib.StableHlo.Run

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg)

/-! ## The arguments at the first call's entry and exit -/

theorem W1_arg0 (c : Dev nD) : W1 m ρ c (Proc.devRef .tc main_arg0) = m ((c : Thread nD τ).loc main_arg0) := by
  show StableHlo.after hostOps0 (W0 m ρ c) (Proc.devRef .tc main_arg0) = _
  after_results_simp
theorem W1_arg1 (c : Dev nD) : W1 m ρ c (Proc.devRef .tc main_arg1) = m ((c : Thread nD τ).loc main_arg1) := by
  show StableHlo.after hostOps0 (W0 m ρ c) (Proc.devRef .tc main_arg1) = _
  after_results_simp
theorem W1_arg2 (c : Dev nD) : W1 m ρ c (Proc.devRef .tc main_arg2) = m ((c : Thread nD τ).loc main_arg2) := by
  show StableHlo.after hostOps0 (W0 m ρ c) (Proc.devRef .tc main_arg2) = _
  after_results_simp
theorem W1_arg3 (c : Dev nD) : W1 m ρ c (Proc.devRef .tc main_arg3) = m ((c : Thread nD τ).loc main_arg3) := by
  show StableHlo.after hostOps0 (W0 m ρ c) (Proc.devRef .tc main_arg3) = _
  after_results_simp
theorem W1_arg4 (c : Dev nD) : W1 m ρ c (Proc.devRef .tc main_arg4) = m ((c : Thread nD τ).loc main_arg4) := by
  show StableHlo.after hostOps0 (W0 m ρ c) (Proc.devRef .tc main_arg4) = _
  after_results_simp
theorem W1_arg5 (c : Dev nD) : W1 m ρ c (Proc.devRef .tc main_arg5) = m ((c : Thread nD τ).loc main_arg5) := by
  show StableHlo.after hostOps0 (W0 m ρ c) (Proc.devRef .tc main_arg5) = _
  after_results_simp
theorem W1_arg6 (c : Dev nD) : W1 m ρ c (Proc.devRef .tc main_arg6) = m ((c : Thread nD τ).loc main_arg6) := by
  show StableHlo.after hostOps0 (W0 m ρ c) (Proc.devRef .tc main_arg6) = _
  after_results_simp
theorem W1_arg7 (c : Dev nD) : W1 m ρ c (Proc.devRef .tc main_arg7) = m ((c : Thread nD τ).loc main_arg7) := by
  show StableHlo.after hostOps0 (W0 m ρ c) (Proc.devRef .tc main_arg7) = _
  after_results_simp
theorem W1_arg8 (c : Dev nD) : W1 m ρ c (Proc.devRef .tc main_arg8) = m ((c : Thread nD τ).loc main_arg8) := by
  show StableHlo.after hostOps0 (W0 m ρ c) (Proc.devRef .tc main_arg8) = _
  after_results_simp
theorem W1_arg9 (c : Dev nD) : W1 m ρ c (Proc.devRef .tc main_arg9) = m ((c : Thread nD τ).loc main_arg9) := by
  show StableHlo.after hostOps0 (W0 m ρ c) (Proc.devRef .tc main_arg9) = _
  after_results_simp
theorem W1_arg10 (c : Dev nD) : W1 m ρ c (Proc.devRef .tc main_arg10) = m ((c : Thread nD τ).loc main_arg10) := by
  show StableHlo.after hostOps0 (W0 m ρ c) (Proc.devRef .tc main_arg10) = _
  after_results_simp
theorem W1_arg11 (c : Dev nD) : W1 m ρ c (Proc.devRef .tc main_arg11) = m ((c : Thread nD τ).loc main_arg11) := by
  show StableHlo.after hostOps0 (W0 m ρ c) (Proc.devRef .tc main_arg11) = _
  after_results_simp
theorem W1_arg12 (c : Dev nD) : W1 m ρ c (Proc.devRef .tc main_arg12) = m ((c : Thread nD τ).loc main_arg12) := by
  show StableHlo.after hostOps0 (W0 m ρ c) (Proc.devRef .tc main_arg12) = _
  after_results_simp

theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_arg9 (c : Dev nD) : W2 m ρ c (Proc.devRef .tc main_arg9) = m ((c : Thread nD τ).loc main_arg9) :=
  (W2_of_ne m ρ c main_arg9 (by decide)).trans (W1_arg9 m ρ c)
theorem W2_arg10 (c : Dev nD) : W2 m ρ c (Proc.devRef .tc main_arg10) = m ((c : Thread nD τ).loc main_arg10) :=
  (W2_of_ne m ρ c main_arg10 (by decide)).trans (W1_arg10 m ρ c)
theorem W2_arg11 (c : Dev nD) : W2 m ρ c (Proc.devRef .tc main_arg11) = m ((c : Thread nD τ).loc main_arg11) :=
  (W2_of_ne m ρ c main_arg11 (by decide)).trans (W1_arg11 m ρ c)
theorem W2_arg12 (c : Dev nD) : W2 m ρ c (Proc.devRef .tc main_arg12) = m ((c : Thread nD τ).loc main_arg12) :=
  (W2_of_ne m ρ c main_arg12 (by decide)).trans (W1_arg12 m ρ c)

/-- An input array of the first call is after the call what it was at its entry. -/
theorem W2_in (c : Dev nD) (w : Fin cfg0.W) (hw : (cfg0.win w).isOut = false) :
    W2 m ρ c (Proc.devRef .tc (Pipeline.arrRef spec0 w)) = V1 m ρ c (Pipeline.arrRef spec0 w) :=
  (W2_arr m ρ c w).trans (((dat0 (V1 m ρ) c).arrAt_in w hw _).trans (A_eq0 (V1 m ρ) c w))

theorem W2_v22 (c : Dev nD) : W2 m ρ c (Proc.devRef .tc main_v22) = (dat0 (V1 m ρ) c).arrAt 6 cfg0.N := W2_arr m ρ c 6

/-! ## The first call's operands -/

theorem V1_arg0 (c : Dev nD) : V1 m ρ c main_arg0 = m ((c : Thread nD τ).loc main_arg0) := W1_arg0 m ρ c
theorem V1_arg4 (c : Dev nD) : V1 m ρ c main_arg4 = m ((c : Thread nD τ).loc main_arg4) := W1_arg4 m ρ c
theorem V1_arg5 (c : Dev nD) : V1 m ρ c main_arg5 = m ((c : Thread nD τ).loc main_arg5) := W1_arg5 m ρ c

/-- The neighbour sums of the features: the reference's gather along the edges and scatter-add into the nodes, of the
    same features and edge lists (the kernel's roundings of the gathered rows are the identity on extended reals). -/
theorem V1_v20 (c : Dev nD) :
    V1 m ρ c main_v20 = Cert.ReferenceIdeal.Read.val_main_v9 (F := Ideal) (m ((c : Thread nD τ).loc main_arg0)) (m ((c : Thread nD τ).loc main_arg1)) (m ((c : Thread nD τ).loc main_arg2)) := by
  show StableHlo.after hostOps0 (W0 m ρ c) (Proc.devRef .tc main_v20) = _
  after_results_simp
  rfl

/-- The scaling column: the reciprocal of the clipped in-degree, as a 100000 × 1 array. -/
theorem V1_v8 (c : Dev nD) :
    V1 m ρ c main_v8 = fun i => shapeCast S100000x1 (Host.divf (broadcastInDim S100000 ![] Facts₀.bcast_S_S100000 (constant (F := Ideal) S_ .f32 0x3F800000#32))
      (Cert.ReferenceIdeal.Read.val_main_v15 (F := Ideal) (m ((c : Thread nD τ).loc main_arg2)))) Facts₀.shapeCasts_S100000_S100000x1 i := by
  show StableHlo.after hostOps0 (W0 m ρ c) (Proc.devRef .tc main_v8) = _
  after_results_simp
  rfl

/-- The first bias as a 1 × 128 row. -/
theorem V1_v21 (c : Dev nD) :
    V1 m ρ c main_v21 = fun i => shapeCast S1x128 (m ((c : Thread nD τ).loc main_arg6)) Facts₀.shapeCasts_S128_S1x128 i := by
  show StableHlo.after hostOps0 (W0 m ρ c) (Proc.devRef .tc main_v21) = _
  after_results_simp
  rfl

/-! ## The second call's operands -/

/-- The hidden layer: what the first call's write-backs left. -/
theorem V3_v22 (c : Dev nD) : V3 m ρ c main_v22 = (dat0 (V1 m ρ) c).arrAt 6 cfg0.N := by
  show StableHlo.after hostOps1 (W2 m ρ c) (Proc.devRef .tc main_v22) = _
  after_results_simp
  exact W2_v22 m ρ c

/-- The neighbour sums of the hidden layer: the same gather and scatter-add, along the same edges. -/
theorem V3_v33 (c : Dev nD) :
    V3 m ρ c main_v33 = Cert.ReferenceIdeal.Read.val_main_v9 (F := Ideal) ((dat0 (V1 m ρ) c).arrAt 6 cfg0.N) (m ((c : Thread nD τ).loc main_arg1)) (m ((c : Thread nD τ).loc main_arg2)) := by
  show StableHlo.after hostOps1 (W2 m ρ c) (Proc.devRef .tc main_v33) = _
  after_results_simp
  rw [W2_v22 m ρ c, W2_arg1 m ρ c, W2_arg2 m ρ c]
  rfl

/-- The scaling column is the first call's, untouched. -/
theorem V3_v8 (c : Dev nD) : V3 m ρ c main_v8 = V1 m ρ c main_v8 := by
  show StableHlo.after hostOps1 (W2 m ρ c) (Proc.devRef .tc main_v8) = _
  after_results_simp
  exact W2_in m ρ c 2 rfl

/-- The two self-weight matrices side by side. -/
theorem V3_v34 (c : Dev nD) :
    V3 m ρ c main_v34 = concatenate S128x128 1 [⟨S128x64, (m ((c : Thread nD τ).loc main_arg7))⟩, ⟨S128x64, (m ((c : Thread nD τ).loc main_arg10))⟩] Facts₀.concatenates_S128x64_S128x64_S128x128_d1 := by
  show StableHlo.after hostOps1 (W2 m ρ c) (Proc.devRef .tc main_v34) = _
  after_results
  rw [W2_arg7 m ρ c, W2_arg10 m ρ c]

/-- The two neighbour-weight matrices side by side. -/
theorem V3_v35 (c : Dev nD) :
    V3 m ρ c main_v35 = concatenate S128x128 1 [⟨S128x64, (m ((c : Thread nD τ).loc main_arg8))⟩, ⟨S128x64, (m ((c : Thread nD τ).loc main_arg11))⟩] Facts₀.concatenates_S128x64_S128x64_S128x128_d1 := by
  show StableHlo.after hostOps1 (W2 m ρ c) (Proc.devRef .tc main_v35) = _
  after_results
  rw [W2_arg8 m ρ c, W2_arg11 m ρ c]

/-- The two later biases end to end, as a 1 × 128 row. -/
theorem V3_v37 (c : Dev nD) :
    V3 m ρ c main_v37 = fun i => shapeCast S1x128 (concatenate S128 0 [⟨S64, (m ((c : Thread nD τ).loc main_arg9))⟩, ⟨S64, (m ((c : Thread nD τ).loc main_arg12))⟩] Facts₀.concatenates_S64_S64_S128_d0) Facts₀.shapeCasts_S128_S1x128 i := by
  show StableHlo.after hostOps1 (W2 m ρ c) (Proc.devRef .tc main_v37) = _
  after_results
  rw [W2_arg9 m ρ c, W2_arg12 m ρ c]
  rfl

/-- The noise. -/
theorem V3_arg3 (c : Dev nD) : V3 m ρ c main_arg3 = m ((c : Thread nD τ).loc main_arg3) := by
  show StableHlo.after hostOps1 (W2 m ρ c) (Proc.devRef .tc main_arg3) = _
  after_results_simp
  exact W2_arg3 m ρ c

end Cert.KernelIdeal.HostValue

end
-- ==== Proof.Spec.lean ====
/-
  The mathematics of the two programs, with no program imported.

  A graph layer maps a node matrix X (n rows, 128 columns) and the per-node sum A of the neighbours' rows to
      X · Ws + (A scaled row by row) · Wn + b.
  The kernel scales row r by MULTIPLYING with a column DV, DV r = 1 / D r; the reference DIVIDES row r by D r, where
  D r = max (degree r) 1 is the same array on both sides. `linK` is the first form and `linR` the second; they agree
  entry by entry once D r ≠ 0 (`mul_inv_den`), which holds because D r ≥ 1 — no finiteness is involved, the law
  x · (1 / d) = x / d is true on all extended reals for d ≠ 0.

  The network: H = max (layer₀ X) 0; then mean = layer₁ H and logstd = layer₂ H over the SAME neighbour sum of H, and the
  result is mean + noise · exp logstd. The kernel computes layer₁ and layer₂ at once, as one layer of width 128 whose
  weights are the two weight matrices side by side, and takes columns c and c + 64 of it (`outK`); the reference
  computes them apart (`outR`). The neighbour sum itself (a gather along edges followed by a scatter-add) is the same
  operation in both programs and stays a parameter `agg` here.
-/
import Idealize.ShloMosaic.PureOps.Ideal
import Idealize.ShloMosaic.PureOps.Ideal.Laws
import Idealize.ShloMosaic.Lib.ValueIdx

noncomputable section

open scoped BigOperators

namespace Cert.Sage

open Idealize.ShloMosaic Idealize.ShloMosaic.ValueIdx

/-- A matrix of extended reals with `a` rows and `b` columns, as a function of its index. -/
abbrev Arr (a b : Nat) : Type := (⟨2, ![a, b]⟩ : Shape).Idx → EReal
/-- A vector of extended reals of length `a`. -/
abbrev Row (a : Nat) : Type := (⟨1, ![a]⟩ : Shape).Idx → EReal

/-- Column `c` of the left half of a 128-wide matrix. -/
abbrev lo (c : Fin 64) : Fin 128 := ⟨c.val, by omega⟩
/-- Column `c` of the right half of a 128-wide matrix. -/
abbrev hi (c : Fin 64) : Fin 128 := ⟨c.val + 64, by omega⟩

/-- Entry (r, c) of a layer in the kernel's form: row r of A is scaled by the factor DV r before it meets Wn. -/
def linK {n p : Nat} (X A : Arr n 128) (DV : Arr n 1) (WS WN : Arr 128 p) (B : Arr 1 p) (r : Fin n) (c : Fin p) : EReal :=
  (∑ k : Fin 128, X (ix2 r k) * WS (ix2 k c)) + (∑ k : Fin 128, (A (ix2 r k) * DV (ix2 r 0)) * WN (ix2 k c)) + B (ix2 0 c)

/-- Entry (r, c) of a layer in the reference's form: row r of A is divided by D r. -/
def linR {n p : Nat} (X A : Arr n 128) (D : Row n) (WS WN : Arr 128 p) (b : Row p) (r : Fin n) (c : Fin p) : EReal :=
  (∑ k : Fin 128, X (ix2 r k) * WS (ix2 k c)) + (∑ k : Fin 128, Ideal.div (A (ix2 r k)) (D (ix1 r)) * WN (ix2 k c)) + b (ix1 c)

/-- The hidden layer, kernel form: the layer clipped below at zero. -/
def hiddenK (X A : Arr 100000 128) (DV : Arr 100000 1) (WS WN : Arr 128 128) (B : Arr 1 128) : Arr 100000 128 :=
  fun i => max (linK X A DV WS WN B (i 0) (i 1)) 0

/-- The hidden layer, reference form. -/
def hiddenR (X A : Arr 100000 128) (D : Row 100000) (WS WN : Arr 128 128) (b : Row 128) : Arr 100000 128 :=
  fun i => max (linR X A D WS WN b (i 0) (i 1)) 0

/-- The result, kernel form: columns c and c + 64 of ONE 128-wide layer of H are the mean and the log of the deviation. -/
def outK (H A : Arr 100000 128) (DV : Arr 100000 1) (WS WN : Arr 128 128) (B : Arr 1 128) (NZ : Arr 100000 64) : Arr 100000 64 :=
  fun i => linK H A DV WS WN B (i 0) (lo (i 1)) + NZ i * Ideal.exp (linK H A DV WS WN B (i 0) (hi (i 1)))

/-- The result, reference form: two 64-wide layers of the same H and the same neighbour sum of H. -/
def outR (agg : Arr 100000 128 → Arr 100000 128) (D : Row 100000) (X : Arr 100000 128) (NZ : Arr 100000 64)
    (WS0 WN0 : Arr 128 128) (b0 : Row 128) (WS1 WN1 : Arr 128 64) (b1 : Row 64) (WS2 WN2 : Arr 128 64) (b2 : Row 64) : Arr 100000 64 :=
  fun i => linR (hiddenR X (agg X) D WS0 WN0 b0) (agg (hiddenR X (agg X) D WS0 WN0 b0)) D WS1 WN1 b1 (i 0) (i 1)
    + NZ i * Ideal.exp (linR (hiddenR X (agg X) D WS0 WN0 b0) (agg (hiddenR X (agg X) D WS0 WN0 b0)) D WS2 WN2 b2 (i 0) (i 1))

theorem hiddenK_apply (X A : Arr 100000 128) (DV : Arr 100000 1) (WS WN : Arr 128 128) (B : Arr 1 128) (r : Fin 100000) (c : Fin 128) :
    hiddenK X A DV WS WN B (ix2 r c) = max (linK X A DV WS WN B r c) 0 := rfl

theorem hiddenR_apply (X A : Arr 100000 128) (D : Row 100000) (WS WN : Arr 128 128) (b : Row 128) (r : Fin 100000) (c : Fin 128) :
    hiddenR X A D WS WN b (ix2 r c) = max (linR X A D WS WN b r c) 0 := rfl

theorem outK_apply (H A : Arr 100000 128) (DV : Arr 100000 1) (WS WN : Arr 128 128) (B : Arr 1 128) (NZ : Arr 100000 64) (r : Fin 100000) (c : Fin 64) :
    outK H A DV WS WN B NZ (ix2 r c) = linK H A DV WS WN B r (lo c) + NZ (ix2 r c) * Ideal.exp (linK H A DV WS WN B r (hi c)) := rfl

/-- Multiplying by the reciprocal of a nonzero extended real is dividing by it: both are x · d⁻¹. -/
theorem mul_inv_den (x d : EReal) (hd : d ≠ 0) : x * Ideal.div 1 d = Ideal.div x d := by
  unfold Ideal.div
  rw [if_neg hd, if_neg hd, one_mul]

/-- The two forms of a layer agree entry by entry when the scaling column is the reciprocal of a nonzero divisor and the
    bias row is the same vector. -/
theorem linK_eq_linR {n p : Nat} (X A : Arr n 128) (DV : Arr n 1) (D : Row n) (WS WN : Arr 128 p) (B : Arr 1 p) (b : Row p)
    (hDV : ∀ r, DV (ix2 r 0) = Ideal.div 1 (D (ix1 r))) (hD : ∀ r, D (ix1 r) ≠ 0) (hB : ∀ c, B (ix2 0 c) = b (ix1 c))
    (r : Fin n) (c : Fin p) : linK X A DV WS WN B r c = linR X A D WS WN b r c := by
  unfold linK linR
  rw [hB c]
  refine congrArg (fun s => (∑ k : Fin 128, X (ix2 r k) * WS (ix2 k c)) + s + b (ix1 c)) ?_
  refine Finset.sum_congr rfl fun k _ => ?_
  rw [hDV r, mul_inv_den _ _ (hD r)]

/-- A layer depends on its weights and bias only through the column read. -/
theorem linK_congr_cols {n p q : Nat} (X A : Arr n 128) (DV : Arr n 1) (WS WN : Arr 128 p) (B : Arr 1 p)
    (WS' WN' : Arr 128 q) (B' : Arr 1 q) (c : Fin p) (c' : Fin q)
    (hS : ∀ k, WS (ix2 k c) = WS' (ix2 k c')) (hN : ∀ k, WN (ix2 k c) = WN' (ix2 k c')) (hB : B (ix2 0 c) = B' (ix2 0 c'))
    (r : Fin n) : linK X A DV WS WN B r c = linK X A DV WS' WN' B' r c' := by
  unfold linK
  simp only [hS, hN, hB]

end Cert.Sage

end
-- ==== Proof.Region0.lean ====
/-
  The first tiled call as a value.

  The call walks the 100000 node rows in 50 blocks of 2000. At block t it loads rows 2000 t … 2000 t + 1999 of the node
  matrix, of the neighbour sums and of the scaling column, and the two weight matrices and the bias row whole; it stores
  one block of 2000 × 128 results. Entry (p, q) of that block is the hidden layer's entry (2000 t + p, q) of the arrays
  as the call finds them: a block's element sits at block index × block size + its coordinate, so the rows the body
  reads are the rows the entry depends on, and the weight and bias windows stay at block 0. The 50 blocks tile the
  array (row r lies in block r / 2000), so after the call the output array is the hidden layer `hiddenK` everywhere.
-/
import proofs.«136242_j24000277250672_2_alg».proof.Proof.Gen.KernelIdeal.Frame
import proofs.«136242_j24000277250672_2_alg».proof.Proof.Spec
import Idealize.ShloMosaic.Lib.Pipeline.Value
import Idealize.ShloMosaic.Lib.ValueIdx

set_option maxRecDepth 16384

noncomputable section

namespace Cert.KernelIdeal.Region0

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-blocked windows sit at block row t, the weight and bias windows at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 50 := by
  have h := t.isLt
  have hN : cfg0.N = 50 := N_0
  omega

/-- The node row that sits at row p of block t. -/
def row (t : Fin cfg0.N) (p : Fin 2000) : Fin 100000 := ⟨t.val * 2000 + p.val, by have := t_lt t; omega⟩

/-! ## Each window's block at point t, read where the output's block says -/

theorem rd0 (c : Dev nD) (t : Fin cfg0.N) (p : Fin 2000) (k : Fin 128) :
    iblk0 V c 0 t (ix2 p k) = (V c main_arg0 : Arr 100000 128) (ix2 (row t p) k) := by
  show V c main_arg0 (((cfg0.win 0).blk t).view.emb (ix2 p k)) = V c main_arg0 (ix2 (row t p) k)
  refine congrArg _ ?_
  obtain ⟨e00, e01, -⟩ := idx_facts t
  funext a; apply Fin.ext
  match a with
  | ⟨0, _⟩ => show win0_0.index t (0 : Fin 2) * 2000 + 1 * p.val = t.val * 2000 + p.val; omega
  | ⟨1, _⟩ => show win0_0.index t (1 : Fin 2) * 128 + 1 * k.val = k.val; omega

theorem rd1 (c : Dev nD) (t : Fin cfg0.N) (p : Fin 2000) (k : Fin 128) :
    iblk0 V c 1 t (ix2 p k) = (V c main_v20 : Arr 100000 128) (ix2 (row t p) k) := by
  show V c main_v20 (((cfg0.win 1).blk t).view.emb (ix2 p k)) = V c main_v20 (ix2 (row t p) k)
  refine congrArg _ ?_
  obtain ⟨-, -, e10, e11, -⟩ := idx_facts t
  funext a; apply Fin.ext
  match a with
  | ⟨0, _⟩ => show win0_1.index t (0 : Fin 2) * 2000 + 1 * p.val = t.val * 2000 + p.val; omega
  | ⟨1, _⟩ => show win0_1.index t (1 : Fin 2) * 128 + 1 * k.val = k.val; omega

theorem rd2 (c : Dev nD) (t : Fin cfg0.N) (p : Fin 2000) :
    iblk0 V c 2 t (ix2 p 0) = (V c main_v8 : Arr 100000 1) (ix2 (row t p) 0) := by
  show V c main_v8 (((cfg0.win 2).blk t).view.emb (ix2 p 0)) = V c main_v8 (ix2 (row t p) 0)
  refine congrArg _ ?_
  obtain ⟨-, -, -, -, e20, e21, -⟩ := idx_facts t
  funext a; apply Fin.ext
  match a with
  | ⟨0, _⟩ => show win0_2.index t (0 : Fin 2) * 2000 + 1 * p.val = t.val * 2000 + p.val; omega
  | ⟨1, _⟩ => show win0_2.index t (1 : Fin 2) * 1 + 1 * 0 = 0; omega

theorem rd3 (c : Dev nD) (t : Fin cfg0.N) (k q : Fin 128) :
    iblk0 V c 3 t (ix2 k q) = (V c main_arg4 : Arr 128 128) (ix2 k q) := by
  show V c main_arg4 (((cfg0.win 3).blk t).view.emb (ix2 k q)) = V c main_arg4 (ix2 k q)
  refine congrArg _ ?_
  obtain ⟨-, -, -, -, -, -, e30, e31, -⟩ := idx_facts t
  funext a; apply Fin.ext
  match a with
  | ⟨0, _⟩ => show win0_3.index t (0 : Fin 2) * 128 + 1 * k.val = k.val; omega
  | ⟨1, _⟩ => show win0_3.index t (1 : Fin 2) * 128 + 1 * q.val = q.val; omega

theorem rd4 (c : Dev nD) (t : Fin cfg0.N) (k q : Fin 128) :
    iblk0 V c 4 t (ix2 k q) = (V c main_arg5 : Arr 128 128) (ix2 k q) := by
  show V c main_arg5 (((cfg0.win 4).blk t).view.emb (ix2 k q)) = V c main_arg5 (ix2 k q)
  refine congrArg _ ?_
  obtain ⟨-, -, -, -, -, -, -, -, e40, e41, -⟩ := idx_facts t
  funext a; apply Fin.ext
  match a with
  | ⟨0, _⟩ => show win0_4.index t (0 : Fin 2) * 128 + 1 * k.val = k.val; omega
  | ⟨1, _⟩ => show win0_4.index t (1 : Fin 2) * 128 + 1 * q.val = q.val; omega

theorem rd5 (c : Dev nD) (t : Fin cfg0.N) (q : Fin 128) :
    iblk0 V c 5 t (ix2 0 q) = (V c main_v21 : Arr 1 128) (ix2 0 q) := by
  show V c main_v21 (((cfg0.win 5).blk t).view.emb (ix2 0 q)) = V c main_v21 (ix2 0 q)
  refine congrArg _ ?_
  obtain ⟨-, -, -, -, -, -, -, -, -, -, e50, e51, -⟩ := idx_facts t
  funext a; apply Fin.ext
  match a with
  | ⟨0, _⟩ => show win0_5.index t (0 : Fin 2) * 1 + 1 * 0 = 0; omega
  | ⟨1, _⟩ => show win0_5.index t (1 : Fin 2) * 128 + 1 * q.val = q.val; omega

/-- Where entry (p, q) of the output's block t sits in the output array. -/
theorem emb6 (t : Fin cfg0.N) (p : Fin 2000) (q : Fin 128) :
    ((cfg0.win 6).blk t).view.emb (ix2 p q) = ix2 (row t p) q := by
  obtain ⟨-, -, -, -, -, -, -, -, -, -, -, -, e60, e61⟩ := idx_facts t
  funext a; apply Fin.ext
  match a with
  | ⟨0, _⟩ => show win0_6.index t (0 : Fin 2) * 2000 + 1 * p.val = t.val * 2000 + p.val; omega
  | ⟨1, _⟩ => show win0_6.index t (1 : Fin 2) * 128 + 1 * q.val = q.val; omega

/-- A layer's entry depends on its operands only through the entries it reads. -/
theorem linK_congr {n n' : Nat} (X A : Arr n 128) (DV : Arr n 1) (WS WN : Arr 128 128) (B : Arr 1 128)
    (X' A' : Arr n' 128) (DV' : Arr n' 1) (WS' WN' : Arr 128 128) (B' : Arr 1 128) (r : Fin n) (r' : Fin n') (q : Fin 128)
    (h0 : ∀ k, X (ix2 r k) = X' (ix2 r' k)) (h1 : ∀ k, A (ix2 r k) = A' (ix2 r' k)) (h2 : DV (ix2 r 0) = DV' (ix2 r' 0))
    (h3 : ∀ k, WS (ix2 k q) = WS' (ix2 k q)) (h4 : ∀ k, WN (ix2 k q) = WN' (ix2 k q)) (h5 : B (ix2 0 q) = B' (ix2 0 q)) :
    linK X A DV WS WN B r q = linK X' A' DV' WS' WN' B' r' q := by
  unfold linK
  simp only [h0, h1, h2, h3, h4, h5]

/-- What point t writes back is block t of the hidden layer of the arrays as the call finds them. -/
theorem flushed_eq
    (hpay : ∀ (x0 x1 : Vec Ideal S2000x128 .f32) (x2 : Vec Ideal S2000x1 .f32) (x3 x4 : Vec Ideal S128x128 .f32) (x5 : Vec Ideal S1x128 .f32)
      (p : Fin 2000) (q : Fin 128), k0_pay1 (F := Ideal) x0 x1 x2 x3 x4 x5 (ix2 p q) = max (linK x0 x1 x2 x3 x4 x5 p q) 0)
    (c : Dev nD) (t : Fin cfg0.N) :
    (dat0 V c).flushed 6 t = ((cfg0.win 6).blk t).view.read (Elt Ideal)
      (hiddenK (V c main_arg0) (V c main_v20) (V c main_v8) (V c main_arg4) (V c main_arg5) (V c main_v21)) := by
  show (cfg0.win 6).cut (grid0.coords t) ((dat0 V c).after 6 t) = _
  rw [after0_6]
  unfold out0_6
  rw [View.canon_unit_zero hz]
  simp only [View.ld_unit_zero (S := S2000x128) hz, View.ld_unit_zero (S := S2000x1) hz, View.ld_unit_zero (S := S128x128) hz,
    View.ld_unit_zero (S := S1x128) hz]
  funext j
  obtain ⟨p, q, rfl⟩ : ∃ (p : Fin 2000) (q : Fin 128), j = ix2 p q := ⟨j 0, j 1, eq_ix2 j⟩
  show k0_pay1 (F := Ideal) (iblk0 V c 0 t) (iblk0 V c 1 t) (iblk0 V c 2 t) (iblk0 V c 3 t) (iblk0 V c 4 t) (iblk0 V c 5 t) (ix2 p q)
    = hiddenK (V c main_arg0) (V c main_v20) (V c main_v8) (V c main_arg4) (V c main_arg5) (V c main_v21) (((cfg0.win 6).blk t).view.emb (ix2 p q))
  rw [emb6 t p q, hiddenK_apply]
  refine (hpay _ _ _ _ _ _ p q).trans (congrArg (fun s => max s 0) ?_)
  exact linK_congr _ _ _ _ _ _ _ _ _ _ _ _ p (row t p) q (fun k => rd0 V c t p k) (fun k => rd1 V c t p k) (rd2 V c t p)
    (fun k => rd3 V c t k q) (fun k => rd4 V c t k q) (rd5 V c t q)

/-- An index of the output array is in point t's block iff each coordinate is in the block's range on its axis. -/
theorem mem_blk (t : Fin cfg0.N) (i : S100000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v22).slice (win0_6.rect t)).set ↔ _
  rw [View.set_slice_whole, Rect.mem_set_unit]
  exact Iff.rfl

/-- The blocks tile the array: row r lies in block r / 2000. -/
theorem cover (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 50 := N_0
  refine ⟨⟨(i 0).val / 2000, by rw [hN]; omega⟩, flush0_6 _, ?_⟩
  rw [mem_blk]
  obtain ⟨-, -, -, -, -, -, -, -, -, -, -, -, e60, e61⟩ := idx_facts ⟨(i 0).val / 2000, by rw [hN]; omega⟩
  intro a
  match a with
  | ⟨0, _⟩ =>
    show win0_6.index ⟨(i 0).val / 2000, _⟩ (0 : Fin 2) * 2000 ≤ (i 0).val ∧ (i 0).val < win0_6.index ⟨(i 0).val / 2000, _⟩ (0 : Fin 2) * 2000 + 2000
    rw [e60]; show (i 0).val / 2000 * 2000 ≤ (i 0).val ∧ (i 0).val < (i 0).val / 2000 * 2000 + 2000; omega
  | ⟨1, _⟩ =>
    show win0_6.index ⟨(i 0).val / 2000, _⟩ (1 : Fin 2) * 128 ≤ (i 1).val ∧ (i 1).val < win0_6.index ⟨(i 0).val / 2000, _⟩ (1 : Fin 2) * 128 + 128
    rw [e61]; omega

/-- After the call the output array is the hidden layer of the arrays as the call finds them. -/
theorem final
    (hpay : ∀ (x0 x1 : Vec Ideal S2000x128 .f32) (x2 : Vec Ideal S2000x1 .f32) (x3 x4 : Vec Ideal S128x128 .f32) (x5 : Vec Ideal S1x128 .f32)
      (p : Fin 2000) (q : Fin 128), k0_pay1 (F := Ideal) x0 x1 x2 x3 x4 x5 (ix2 p q) = max (linK x0 x1 x2 x3 x4 x5 p q) 0)
    (c : Dev nD) :
    (dat0 V c).arrAt 6 cfg0.N = hiddenK (V c main_arg0) (V c main_v20) (V c main_v8) (V c main_arg4) (V c main_arg5) (V c main_v21) :=
  (dat0 V c).arrAt_eq_of_cover 6 _ (fun t _ => flushed_eq V hpay c t) cover

end Cert.KernelIdeal.Region0

end
-- ==== Proof.Region1.lean ====
/-
  The second tiled call as a value.

  Again 50 blocks of 2000 node rows. At block t the body loads rows 2000 t … 2000 t + 1999 of the hidden layer, of its
  neighbour sums, of the scaling column and of the noise, and the two 128-wide weight matrices and the bias row whole;
  it stores one block of 2000 × 64 results: entry (p, q) is column q of the 128-wide layer plus the noise times the
  exponential of column q + 64, at node row 2000 t + p. The blocks tile the array, so after the call the result array
  is `outK` of the arrays as the call finds them.
-/
import proofs.«136242_j24000277250672_2_alg».proof.Proof.Gen.KernelIdeal.Frame
import proofs.«136242_j24000277250672_2_alg».proof.Proof.Spec
import Idealize.ShloMosaic.Lib.Pipeline.Value
import Idealize.ShloMosaic.Lib.ValueIdx

set_option maxRecDepth 16384

noncomputable section

namespace Cert.KernelIdeal.Region1

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row-blocked windows sit at block row t, the weight and bias windows at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

theorem t_lt (t : Fin cfg1.N) : t.val < 50 := by
  have h := t.isLt
  have hN : cfg1.N = 50 := N_1
  omega

/-- The node row that sits at row p of block t. -/
def row (t : Fin cfg1.N) (p : Fin 2000) : Fin 100000 := ⟨t.val * 2000 + p.val, by have := t_lt t; omega⟩

/-! ## Each window's block at point t, read where the output's block says -/

theorem rd0 (c : Dev nD) (t : Fin cfg1.N) (p : Fin 2000) (k : Fin 128) :
    iblk1 V c 0 t (ix2 p k) = (V c main_v22 : Arr 100000 128) (ix2 (row t p) k) := by
  show V c main_v22 (((cfg1.win 0).blk t).view.emb (ix2 p k)) = V c main_v22 (ix2 (row t p) k)
  refine congrArg _ ?_
  have e0 := (idx_facts t).1
  have e1 := (idx_facts t).2.1
  funext a; apply Fin.ext
  match a with
  | ⟨0, _⟩ => show win1_0.index t (0 : Fin 2) * 2000 + 1 * p.val = t.val * 2000 + p.val; omega
  | ⟨1, _⟩ => show win1_0.index t (1 : Fin 2) * 128 + 1 * k.val = k.val; omega

theorem rd1 (c : Dev nD) (t : Fin cfg1.N) (p : Fin 2000) (k : Fin 128) :
    iblk1 V c 1 t (ix2 p k) = (V c main_v33 : Arr 100000 128) (ix2 (row t p) k) := by
  show V c main_v33 (((cfg1.win 1).blk t).view.emb (ix2 p k)) = V c main_v33 (ix2 (row t p) k)
  refine congrArg _ ?_
  have e0 := (idx_facts t).2.2.1
  have e1 := (idx_facts t).2.2.2.1
  funext a; apply Fin.ext
  match a with
  | ⟨0, _⟩ => show win1_1.index t (0 : Fin 2) * 2000 + 1 * p.val = t.val * 2000 + p.val; omega
  | ⟨1, _⟩ => show win1_1.index t (1 : Fin 2) * 128 + 1 * k.val = k.val; omega

theorem rd2 (c : Dev nD) (t : Fin cfg1.N) (p : Fin 2000) :
    iblk1 V c 2 t (ix2 p 0) = (V c main_v8 : Arr 100000 1) (ix2 (row t p) 0) := by
  show V c main_v8 (((cfg1.win 2).blk t).view.emb (ix2 p 0)) = V c main_v8 (ix2 (row t p) 0)
  refine congrArg _ ?_
  have e0 := (idx_facts t).2.2.2.2.1
  have e1 := (idx_facts t).2.2.2.2.2.1
  funext a; apply Fin.ext
  match a with
  | ⟨0, _⟩ => show win1_2.index t (0 : Fin 2) * 2000 + 1 * p.val = t.val * 2000 + p.val; omega
  | ⟨1, _⟩ => show win1_2.index t (1 : Fin 2) * 1 + 1 * 0 = 0; omega

theorem rd3 (c : Dev nD) (t : Fin cfg1.N) (k : Fin 128) (q : Fin 128) :
    iblk1 V c 3 t (ix2 k q) = (V c main_v34 : Arr 128 128) (ix2 k q) := by
  show V c main_v34 (((cfg1.win 3).blk t).view.emb (ix2 k q)) = V c main_v34 (ix2 k q)
  refine congrArg _ ?_
  have e0 := (idx_facts t).2.2.2.2.2.2.1
  have e1 := (idx_facts t).2.2.2.2.2.2.2.1
  funext a; apply Fin.ext
  match a with
  | ⟨0, _⟩ => show win1_3.index t (0 : Fin 2) * 128 + 1 * k.val = k.val; omega
  | ⟨1, _⟩ => show win1_3.index t (1 : Fin 2) * 128 + 1 * q.val = q.val; omega

theorem rd4 (c : Dev nD) (t : Fin cfg1.N) (k : Fin 128) (q : Fin 128) :
    iblk1 V c 4 t (ix2 k q) = (V c main_v35 : Arr 128 128) (ix2 k q) := by
  show V c main_v35 (((cfg1.win 4).blk t).view.emb (ix2 k q)) = V c main_v35 (ix2 k q)
  refine congrArg _ ?_
  have e0 := (idx_facts t).2.2.2.2.2.2.2.2.1
  have e1 := (idx_facts t).2.2.2.2.2.2.2.2.2.1
  funext a; apply Fin.ext
  match a with
  | ⟨0, _⟩ => show win1_4.index t (0 : Fin 2) * 128 + 1 * k.val = k.val; omega
  | ⟨1, _⟩ => show win1_4.index t (1 : Fin 2) * 128 + 1 * q.val = q.val; omega

theorem rd5 (c : Dev nD) (t : Fin cfg1.N) (q : Fin 128) :
    iblk1 V c 5 t (ix2 0 q) = (V c main_v37 : Arr 1 128) (ix2 0 q) := by
  show V c main_v37 (((cfg1.win 5).blk t).view.emb (ix2 0 q)) = V c main_v37 (ix2 0 q)
  refine congrArg _ ?_
  have e0 := (idx_facts t).2.2.2.2.2.2.2.2.2.2.1
  have e1 := (idx_facts t).2.2.2.2.2.2.2.2.2.2.2.1
  funext a; apply Fin.ext
  match a with
  | ⟨0, _⟩ => show win1_5.index t (0 : Fin 2) * 1 + 1 * 0 = 0; omega
  | ⟨1, _⟩ => show win1_5.index t (1 : Fin 2) * 128 + 1 * q.val = q.val; omega

theorem rd6 (c : Dev nD) (t : Fin cfg1.N) (p : Fin 2000) (q : Fin 64) :
    iblk1 V c 6 t (ix2 p q) = (V c main_arg3 : Arr 100000 64) (ix2 (row t p) q) := by
  show V c main_arg3 (((cfg1.win 6).blk t).view.emb (ix2 p q)) = V c main_arg3 (ix2 (row t p) q)
  refine congrArg _ ?_
  have e0 := (idx_facts t).2.2.2.2.2.2.2.2.2.2.2.2.1
  have e1 := (idx_facts t).2.2.2.2.2.2.2.2.2.2.2.2.2.1
  funext a; apply Fin.ext
  match a with
  | ⟨0, _⟩ => show win1_6.index t (0 : Fin 2) * 2000 + 1 * p.val = t.val * 2000 + p.val; omega
  | ⟨1, _⟩ => show win1_6.index t (1 : Fin 2) * 64 + 1 * q.val = q.val; omega

/-- Where entry (p, q) of the output's block t sits in the result array. -/
theorem emb7 (t : Fin cfg1.N) (p : Fin 2000) (q : Fin 64) :
    ((cfg1.win 7).blk t).view.emb (ix2 p q) = ix2 (row t p) q := by
  have e0 := (idx_facts t).2.2.2.2.2.2.2.2.2.2.2.2.2.2.1
  have e1 := (idx_facts t).2.2.2.2.2.2.2.2.2.2.2.2.2.2.2
  funext a; apply Fin.ext
  match a with
  | ⟨0, _⟩ => show win1_7.index t (0 : Fin 2) * 2000 + 1 * p.val = t.val * 2000 + p.val; omega
  | ⟨1, _⟩ => show win1_7.index t (1 : Fin 2) * 64 + 1 * q.val = q.val; omega

/-- A layer's entry depends on its operands only through the entries it reads. -/
theorem linK_congr {n n' : Nat} (X A : Arr n 128) (DV : Arr n 1) (WS WN : Arr 128 128) (B : Arr 1 128)
    (X' A' : Arr n' 128) (DV' : Arr n' 1) (WS' WN' : Arr 128 128) (B' : Arr 1 128) (r : Fin n) (r' : Fin n') (q : Fin 128)
    (h0 : ∀ k, X (ix2 r k) = X' (ix2 r' k)) (h1 : ∀ k, A (ix2 r k) = A' (ix2 r' k)) (h2 : DV (ix2 r 0) = DV' (ix2 r' 0))
    (h3 : ∀ k, WS (ix2 k q) = WS' (ix2 k q)) (h4 : ∀ k, WN (ix2 k q) = WN' (ix2 k q)) (h5 : B (ix2 0 q) = B' (ix2 0 q)) :
    linK X A DV WS WN B r q = linK X' A' DV' WS' WN' B' r' q := by
  unfold linK
  simp only [h0, h1, h2, h3, h4, h5]

/-- What point t writes back is block t of the result function of the arrays as the call finds them. -/
theorem flushed_eq
    (hpay : ∀ (x0 : Vec Ideal S2000x128 .bf16) (x1 : Vec Ideal S2000x128 .f32) (x2 : Vec Ideal S2000x1 .f32) (x3 x4 : Vec Ideal S128x128 .f32) (x5 : Vec Ideal S1x128 .f32)
      (x6 : Vec Ideal S2000x64 .f32) (p : Fin 2000) (q : Fin 64), k1_pay1 (F := Ideal) x0 x1 x2 x3 x4 x5 x6 (ix2 p q)
        = linK x0 x1 x2 x3 x4 x5 p (lo q) + x6 (ix2 p q) * Ideal.exp (linK x0 x1 x2 x3 x4 x5 p (hi q)))
    (c : Dev nD) (t : Fin cfg1.N) :
    (dat1 V c).flushed 7 t = ((cfg1.win 7).blk t).view.read (Elt Ideal)
      (outK (V c main_v22) (V c main_v33) (V c main_v8) (V c main_v34) (V c main_v35) (V c main_v37) (V c main_arg3)) := by
  show (cfg1.win 7).cut (grid1.coords t) ((dat1 V c).after 7 t) = _
  rw [after1_7]
  unfold out1_7
  rw [View.canon_unit_zero hz]
  simp only [View.ld_unit_zero (S := S2000x128) hz, View.ld_unit_zero (S := S2000x1) hz, View.ld_unit_zero (S := S128x128) hz,
    View.ld_unit_zero (S := S1x128) hz, View.ld_unit_zero (S := S2000x64) hz]
  funext j
  obtain ⟨p, q, rfl⟩ : ∃ (p : Fin 2000) (q : Fin 64), j = ix2 p q := ⟨j 0, j 1, eq_ix2 j⟩
  show k1_pay1 (F := Ideal) (iblk1 V c 0 t) (iblk1 V c 1 t) (iblk1 V c 2 t) (iblk1 V c 3 t) (iblk1 V c 4 t) (iblk1 V c 5 t) (iblk1 V c 6 t) (ix2 p q)
    = outK (V c main_v22) (V c main_v33) (V c main_v8) (V c main_v34) (V c main_v35) (V c main_v37) (V c main_arg3) (((cfg1.win 7).blk t).view.emb (ix2 p q))
  rw [emb7 t p q, outK_apply]
  refine (hpay _ _ _ _ _ _ _ p q).trans ?_
  rw [rd6 V c t p q]
  have hlo := linK_congr _ _ _ _ _ _ _ _ _ _ _ _ p (row t p) (lo q) (fun k => rd0 V c t p k) (fun k => rd1 V c t p k) (rd2 V c t p)
    (fun k => rd3 V c t k (lo q)) (fun k => rd4 V c t k (lo q)) (rd5 V c t (lo q))
  have hhi := linK_congr _ _ _ _ _ _ _ _ _ _ _ _ p (row t p) (hi q) (fun k => rd0 V c t p k) (fun k => rd1 V c t p k) (rd2 V c t p)
    (fun k => rd3 V c t k (hi q)) (fun k => rd4 V c t k (hi q)) (rd5 V c t (hi q))
  rw [hlo, hhi]

/-- An index of the result array is in point t's block iff each coordinate is in the block's range on its axis. -/
theorem mem_blk (t : Fin cfg1.N) (i : S100000x64.Idx) :
    i ∈ ((cfg1.win 7).blk t).view.set ↔ ∀ a : Fin 2, win1_7.index t a * S2000x64.size a ≤ (i a).val ∧ (i a).val < win1_7.index t a * S2000x64.size a + S2000x64.size a := by
  show i ∈ ((View.whole main_v38).slice (win1_7.rect t)).set ↔ _
  rw [View.set_slice_whole, Rect.mem_set_unit]
  exact Iff.rfl

/-- The blocks tile the array: row r lies in block r / 2000. -/
theorem cover (i : S100000x64.Idx) : ∃ t : Fin cfg1.N, (cfg1.win 7).flush t = true ∧ i ∈ ((cfg1.win 7).blk t).view.set := by
  have hi0 : (i 0).val < 100000 := (i 0).isLt
  have hi1 : (i 1).val < 64 := (i 1).isLt
  have hN : cfg1.N = 50 := N_1
  refine ⟨⟨(i 0).val / 2000, by rw [hN]; omega⟩, flush1_7 _, ?_⟩
  rw [mem_blk]
  have e0 := (idx_facts ⟨(i 0).val / 2000, by rw [hN]; omega⟩).2.2.2.2.2.2.2.2.2.2.2.2.2.2.1
  have e1 := (idx_facts ⟨(i 0).val / 2000, by rw [hN]; omega⟩).2.2.2.2.2.2.2.2.2.2.2.2.2.2.2
  intro a
  match a with
  | ⟨0, _⟩ =>
    show win1_7.index ⟨(i 0).val / 2000, _⟩ (0 : Fin 2) * 2000 ≤ (i 0).val ∧ (i 0).val < win1_7.index ⟨(i 0).val / 2000, _⟩ (0 : Fin 2) * 2000 + 2000
    rw [e0]; show (i 0).val / 2000 * 2000 ≤ (i 0).val ∧ (i 0).val < (i 0).val / 2000 * 2000 + 2000; omega
  | ⟨1, _⟩ =>
    show win1_7.index ⟨(i 0).val / 2000, _⟩ (1 : Fin 2) * 64 ≤ (i 1).val ∧ (i 1).val < win1_7.index ⟨(i 0).val / 2000, _⟩ (1 : Fin 2) * 64 + 64
    rw [e1]; omega

/-- After the call the result array is the result function of the arrays as the call finds them. -/
theorem final
    (hpay : ∀ (x0 : Vec Ideal S2000x128 .bf16) (x1 : Vec Ideal S2000x128 .f32) (x2 : Vec Ideal S2000x1 .f32) (x3 x4 : Vec Ideal S128x128 .f32) (x5 : Vec Ideal S1x128 .f32)
      (x6 : Vec Ideal S2000x64 .f32) (p : Fin 2000) (q : Fin 64), k1_pay1 (F := Ideal) x0 x1 x2 x3 x4 x5 x6 (ix2 p q)
        = linK x0 x1 x2 x3 x4 x5 p (lo q) + x6 (ix2 p q) * Ideal.exp (linK x0 x1 x2 x3 x4 x5 p (hi q)))
    (c : Dev nD) :
    (dat1 V c).arrAt 7 cfg1.N = outK (V c main_v22) (V c main_v33) (V c main_v8) (V c main_v34) (V c main_v35) (V c main_v37) (V c main_arg3) :=
  (dat1 V c).arrAt_eq_of_cover 7 _ (fun t _ => flushed_eq V hpay c t) cover

end Cert.KernelIdeal.Region1

end
-- ==== Proof.PayLemmas.lean ====
/-
  The steps of the two kernel bodies that are not entry-by-entry, each read at one entry (r, c) of its result:
  a column [a, 1] repeated along b columns; the left and the right 64 columns of a 128-wide array; and the product
  of a [2000, 128] block with a [128, 128] matrix added to a zero array, which at the extended reals is the plain
  sum over the shared axis, here re-indexed from the contraction's own index type to the numbers 0 … 127.
-/
import proofs.«136242_j24000277250672_2_alg».proof.Proof.Gen.KernelIdeal.Skeleton
import proofs.«136242_j24000277250672_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Pay

open Cert.KernelIdeal Cert.KernelIdeal.Gen Cert.Sage Idealize.ShloMosaic Idealize.ShloMosaic.ValueIdx

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left 64 columns of a 128-wide array: the slice at `(p, c)` is the array at `(p, c)`. -/
theorem slice_lo_apply {α : Type} {a : ℕ} (x : (⟨2, ![a, 128]⟩ : Shape).Idx → α)
    (h : (⟨2, ![a, 128]⟩ : Shape).Slices ![0, 0] ⟨2, ![a, 64]⟩) (p : Fin a) (c : Fin 64) :
    extractStridedSlice ⟨2, ![a, 64]⟩ ![0, 0] x h (ix2 p c) = x (ix2 p (lo c)) := by
  refine extractStridedSlice_apply ![0, 0] x h (ix2 p c) (ix2 p (lo c)) fun ax => ?_
  match ax with
  | ⟨0, _⟩ => show p.val = 0 + p.val; omega
  | ⟨1, _⟩ => show c.val = 0 + c.val; omega

/-- The right 64 columns of a 128-wide array: the slice at `(p, c)` is the array at `(p, c + 64)`. -/
theorem slice_hi_apply {α : Type} {a : ℕ} (x : (⟨2, ![a, 128]⟩ : Shape).Idx → α)
    (h : (⟨2, ![a, 128]⟩ : Shape).Slices ![0, 64] ⟨2, ![a, 64]⟩) (p : Fin a) (c : Fin 64) :
    extractStridedSlice ⟨2, ![a, 64]⟩ ![0, 64] x h (ix2 p c) = x (ix2 p (hi c)) := by
  refine extractStridedSlice_apply ![0, 64] x h (ix2 p c) (ix2 p (hi c)) fun ax => ?_
  match ax with
  | ⟨0, _⟩ => show p.val = 0 + p.val; omega
  | ⟨1, _⟩ => show c.val + 64 = 64 + c.val; omega

/-- The left operand's row coordinate is the result's. -/
theorem dot_lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- The left operand's column coordinate is the contraction's. -/
theorem dot_lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right operand's row coordinate is the contraction's. -/
theorem dot_rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- The right operand's column coordinate is the result's. -/
theorem dot_rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A `[2000, 128]` block times a `[128, 128]` matrix, added to the zero array, read at `(p, c)`:
    the sum over `k` of the block at `(p, k)` times the matrix at `(k, c)`. -/
theorem matmul_zero_apply {φ₁ φ₂ : FTy} (lhs : FVec Ideal S2000x128 φ₁) (rhs : FVec Ideal S128x128 φ₂) (p : Fin 2000) (c : Fin 128) :
    FloatOps.matmul dot_S2000x128_S128x128_S2000x128_1_0_0_1_n_n none lhs rhs (constant (F := Ideal) S2000x128 .f32 0x00000000#32) (ix2 p c)
      = ∑ k : Fin 128, lhs (ix2 p k) * rhs (ix2 k c) := by
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p c) ((contrEquiv1 dot_S2000x128_S128x128_S2000x128_1_0_0_1_n_n 128 rfl rfl).symm k) = ix2 p k := funext fun a => Fin.ext (by
    match a with
    | ⟨0, _⟩ => exact dot_lhs_0 _ _
    | ⟨1, _⟩ => exact (dot_lhs_1 _ _).trans hk)
  have er : dot_S2000x128_S128x128_S2000x128_1_0_0_1_n_n.rhsIdx (ix2 p c) ((contrEquiv1 dot_S2000x128_S128x128_S2000x128_1_0_0_1_n_n 128 rfl rfl).symm k) = ix2 k c := funext fun a => Fin.ext (by
    match a with
    | ⟨0, _⟩ => exact (dot_rhs_0 _ _).trans hk
    | ⟨1, _⟩ => exact dot_rhs_1 _ _)
  rw [el, er]

end Cert.Pay

end
-- ==== Proof.Pay0.lean ====
/-
  The first kernel body's stored value at one entry (r, c): the hidden layer. The body multiplies the block X by
  the matrix Ws, and the neighbour block A, each row first scaled by its entry of the column DV, by Wn; adds the two
  products and the bias row; and clips the sum below at zero. Changes of number format are the identity on
  extended reals, so the entry is max (X·Ws + (A scaled)·Wn + b) 0 read at (r, c), which is the specification's
  layer in the kernel's form.
-/
import proofs.«136242_j24000277250672_2_alg».proof.Proof.Gen.KernelIdeal.Skeleton
import proofs.«136242_j24000277250672_2_alg».proof.Proof.Spec
import proofs.«136242_j24000277250672_2_alg».proof.Proof.PayLemmas
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Pay

open Cert.KernelIdeal Cert.KernelIdeal.Gen Cert.Sage Idealize.ShloMosaic Idealize.ShloMosaic.ValueIdx

/-- The first body's stored value at `(p, q)` is the layer clipped below at zero. -/
theorem pay0_apply (x0 x1 : Vec Ideal S2000x128 .f32) (x2 : Vec Ideal S2000x1 .f32) (x3 x4 : Vec Ideal S128x128 .f32)
    (x5 : Vec Ideal S1x128 .f32) (p : Fin 2000) (q : Fin 128) :
    k0_pay1 (F := Ideal) x0 x1 x2 x3 x4 x5 (ix2 p q) = max (linK x0 x1 x2 x3 x4 x5 p q) 0 := by
  unfold k0_pay1 linK
  simp only [truncf_apply, maximumf_apply, addf_apply, broadcast_apply, matmul]
  rw [matmul_zero_apply, matmul_zero_apply, broadcastTo_1b_ab_apply, shapeCast_self]
  simp only [truncf_apply, mulf_apply, shapeCast_self, broadcastTo_a1_ab_apply]
  show max _ (Ideal.ofBits .f32 0x00000000#32) = _
  rw [Ideal.ofBits_zero_f32]

end Cert.Pay

end
-- ==== Proof.Pay1.lean ====
/-
  The second kernel body's stored value at one entry (r, c): the sampled output. The body computes ONE layer of
  width 128 from the hidden block H — H·Ws + (A scaled row by row by DV)·Wn + b — and splits it: its left 64 columns
  are the mean, its right 64 columns the logarithm of the deviation; the stored value is mean + noise · exp(logstd).
  Changes of number format are the identity on extended reals, so at (r, c) the value is the layer at column c plus
  the noise at (r, c) times the exponential of the layer at column c + 64.
-/
import proofs.«136242_j24000277250672_2_alg».proof.Proof.Gen.KernelIdeal.Skeleton
import proofs.«136242_j24000277250672_2_alg».proof.Proof.Spec
import proofs.«136242_j24000277250672_2_alg».proof.Proof.PayLemmas
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Pay

open Cert.KernelIdeal Cert.KernelIdeal.Gen Cert.Sage Idealize.ShloMosaic Idealize.ShloMosaic.ValueIdx

/-- An exponential taken entry by entry, read at an index, is the exponential of the entry. -/
theorem exp_apply {s : Shape} {φ : FTy} (a : FVec Ideal s φ) (i : s.Idx) : exp a i = Ideal.exp (a i) := rfl

/-- The second body's stored value at `(p, q)`: the layer's column `q` plus the noise times the exponential of
    its column `q + 64`. -/
theorem pay1_apply (x0 : Vec Ideal S2000x128 .bf16) (x1 : Vec Ideal S2000x128 .f32) (x2 : Vec Ideal S2000x1 .f32)
    (x3 x4 : Vec Ideal S128x128 .f32) (x5 : Vec Ideal S1x128 .f32) (x6 : Vec Ideal S2000x64 .f32) (p : Fin 2000) (q : Fin 64) :
    k1_pay1 (F := Ideal) x0 x1 x2 x3 x4 x5 x6 (ix2 p q)
      = linK x0 x1 x2 x3 x4 x5 p (lo q) + x6 (ix2 p q) * Ideal.exp (linK x0 x1 x2 x3 x4 x5 p (hi q)) := by
  unfold k1_pay1 linK
  simp only [addf_apply, mulf_apply, exp_apply, matmul]
  rw [slice_lo_apply, slice_hi_apply]
  simp only [addf_apply, matmul_zero_apply, broadcastTo_1b_ab_apply, shapeCast_self, truncf_apply, mulf_apply,
    broadcastTo_a1_ab_apply]

end Cert.Pay

end
-- ==== Proof.HostIdx.lean ====
/-
  The arrays the host prepares for the two calls, each read at one entry.

  The scaling column: the vector of reciprocals 1 / d, laid out as a column of one entry per row, so its entry of
  row r is 1 / d r. The divisor d = max (degree) 1 is never zero, being at least one. A bias vector laid out as one
  row of 128 entries keeps its entries. Two 64-column matrices placed side by side make a 128-column matrix whose
  column c < 64 is the first matrix's column c and whose column c + 64 is the second's column c; likewise two
  vectors of length 64 placed end to end, laid out as one row.
-/
import proofs.«136242_j24000277250672_2_alg».proof.KernelIdeal
import proofs.«136242_j24000277250672_2_alg».proof.Proof.Gen.KernelIdeal
import proofs.«136242_j24000277250672_2_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal
import Idealize.ShloMosaic.PureOps.Ideal.Laws

noncomputable section

open scoped BigOperators

namespace Cert.HostIdx

open Cert.KernelIdeal Cert.Sage Idealize.ShloMosaic Idealize.ShloMosaic.ValueIdx

/-- An `[a]` array cast to a column `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The constant one repeated along a vector reads one everywhere. -/
theorem ones_apply (hb : S_.BroadcastsInDim S100000 (![] : Fin 0 → Fin S100000.rank)) (r : Fin 100000) :
    broadcastInDim S100000 ![] hb (constant (F := Ideal) S_ .f32 0x3F800000#32) (ix1 r) = 1 := by
  refine (broadcastInDim_apply (![] : Fin 0 → Fin S100000.rank) hb (constant (F := Ideal) S_ .f32 0x3F800000#32)
    (ix1 r) ix0 (fun a => a.elim0)).trans ?_
  exact (constant_apply (s := S_) (φ := .f32) 0x3F800000#32 ix0).trans Ideal.ofBits_one_f32

/-- The scaling column: the vector `1 / v` laid out as a column reads, at row `r`, the quotient `1 / v r`. -/
theorem recipColumn_apply (v : FVec Ideal S100000 .f32)
    (hb : S_.BroadcastsInDim S100000 (![] : Fin 0 → Fin S100000.rank)) (hc : S100000.ShapeCasts S100000x1) (r : Fin 100000) :
    shapeCast S100000x1 (Host.divf (broadcastInDim S100000 ![] hb (constant (F := Ideal) S_ .f32 0x3F800000#32)) v) hc
      (ix2 r 0) = Ideal.div 1 (v (ix1 r)) := by
  refine (shapeCast_a_a1_apply _ hc r 0).trans ?_
  show Ideal.div (broadcastInDim S100000 ![] hb (constant (F := Ideal) S_ .f32 0x3F800000#32) (ix1 r)) (v (ix1 r)) = _
  rw [ones_apply]

/-- The divisor `max v 1` is nowhere zero: it is at least one. -/
theorem maxOne_ne_zero (v : FVec Ideal S100000 .f32)
    (hb : S_.BroadcastsInDim S100000 (![] : Fin 0 → Fin S100000.rank)) (r : Fin 100000) :
    maximumf v (broadcastInDim S100000 ![] hb (constant (F := Ideal) S_ .f32 0x3F800000#32)) (ix1 r) ≠ 0 := by
  rw [maximumf_apply, ones_apply]
  exact ne_of_gt (lt_of_lt_of_le zero_lt_one (le_max_right _ _))

/-- A vector of length 128 laid out as one row reads, at `(0, c)`, its entry `c`. -/
theorem biasRow_apply (b : FVec Ideal S128 .f32) (hc : S128.ShapeCasts S1x128) (c : Fin 128) :
    shapeCast S1x128 b hc (ix2 0 c) = b (ix1 c) :=
  shapeCast_a_1a_apply b hc 0 c

/-- Two `[128, 64]` matrices side by side: column `c` of the left half is the first matrix's column `c`. -/
theorem concatCols_lo_apply (a b : FVec Ideal S128x64 .f32) (h : Shape.Concatenates [S128x64, S128x64] S128x128 1)
    (k : Fin 128) (c : Fin 64) :
    concatenate S128x128 1 [⟨S128x64, a⟩, ⟨S128x64, b⟩] h (ix2 k (lo c)) = a (ix2 k c) :=
  concatenate_pair_apply_left (t := S128x128) (s₁ := S128x64) (s₂ := S128x64) (1 : Fin 2) a b h (ix2 k (lo c)) rfl (ix2 k c)
    (fun ax => match ax with
      | ⟨0, _⟩ => rfl
      | ⟨1, _⟩ => rfl)

/-- Two `[128, 64]` matrices side by side: column `c + 64` is the second matrix's column `c`. -/
theorem concatCols_hi_apply (a b : FVec Ideal S128x64 .f32) (h : Shape.Concatenates [S128x64, S128x64] S128x128 1)
    (k : Fin 128) (c : Fin 64) :
    concatenate S128x128 1 [⟨S128x64, a⟩, ⟨S128x64, b⟩] h (ix2 k (hi c)) = b (ix2 k c) :=
  concatenate_pair_apply_right (t := S128x128) (s₁ := S128x64) (s₂ := S128x64) (1 : Fin 2) a b h (ix2 k (hi c)) rfl rfl (ix2 k c)
    (fun ax => match ax with
      | ⟨0, _⟩ => fun _ => rfl
      | ⟨1, _⟩ => fun hne => absurd rfl hne)
    rfl

/-- Two vectors of length 64 end to end, laid out as one row: entry `c` of the left half is the first vector's entry `c`. -/
theorem concatRow_lo_apply (a b : FVec Ideal S64 .f32) (h : Shape.Concatenates [S64, S64] S128 0)
    (hc : S128.ShapeCasts S1x128) (c : Fin 64) :
    shapeCast S1x128 (concatenate S128 0 [⟨S64, a⟩, ⟨S64, b⟩] h) hc (ix2 0 (lo c)) = a (ix1 c) := by
  refine (shapeCast_a_1a_apply _ hc 0 (lo c)).trans ?_
  exact concatenate_pair_apply_left (t := S128) (s₁ := S64) (s₂ := S64) (0 : Fin 1) a b h (ix1 (lo c)) rfl (ix1 c)
    (fun ax => match ax with
      | ⟨0, _⟩ => rfl)

/-- Two vectors of length 64 end to end, laid out as one row: entry `c + 64` is the second vector's entry `c`. -/
theorem concatRow_hi_apply (a b : FVec Ideal S64 .f32) (h : Shape.Concatenates [S64, S64] S128 0)
    (hc : S128.ShapeCasts S1x128) (c : Fin 64) :
    shapeCast S1x128 (concatenate S128 0 [⟨S64, a⟩, ⟨S64, b⟩] h) hc (ix2 0 (hi c)) = b (ix1 c) := by
  refine (shapeCast_a_1a_apply _ hc 0 (hi c)).trans ?_
  exact concatenate_pair_apply_right (t := S128) (s₁ := S64) (s₂ := S64) (0 : Fin 1) a b h (ix1 (hi c)) rfl rfl (ix1 c)
    (fun ax => match ax with
      | ⟨0, _⟩ => fun hne => absurd rfl hne)
    rfl

end Cert.HostIdx

end
-- ==== Proof.Bridge.lean ====
/-
  The kernel's arrangement of the network equals the reference's.

  Three differences, all settled entry by entry: the kernel multiplies a neighbour sum by the reciprocal of the degree
  where the reference divides by the degree (equal because the degree is clipped below at 1, hence nonzero); the
  kernel's bias is a 1 × p row where the reference's is a vector; and the kernel reads the mean and the log of the
  deviation as columns c and c + 64 of one 128-wide layer whose weights are the two 64-wide weight matrices side by
  side. The hidden layers agree first, as arrays; the neighbour sum of the hidden layer is then the same array on both
  sides, whatever the neighbour sum is.
-/
import proofs.«136242_j24000277250672_2_alg».proof.Proof.Spec

noncomputable section

open scoped BigOperators

namespace Cert.Sage

open Idealize.ShloMosaic Idealize.ShloMosaic.ValueIdx

/-- Column c of a layer in the kernel's form is column c' of a layer in the reference's form when the weights and the
    bias agree on those columns, the scaling column is the reciprocal of the divisor, and the divisor is nonzero. -/
theorem linK_eq_linR_cols {n p q : Nat} (X A : Arr n 128) (DV : Arr n 1) (D : Row n) (WS WN : Arr 128 p) (B : Arr 1 p)
    (WS' WN' : Arr 128 q) (b : Row q)
    (hDV : ∀ r, DV (ix2 r 0) = Ideal.div 1 (D (ix1 r))) (hD : ∀ r, D (ix1 r) ≠ 0)
    (c : Fin p) (c' : Fin q) (hS : ∀ k, WS (ix2 k c) = WS' (ix2 k c')) (hN : ∀ k, WN (ix2 k c) = WN' (ix2 k c'))
    (hB : B (ix2 0 c) = b (ix1 c')) (r : Fin n) :
    linK X A DV WS WN B r c = linR X A D WS' WN' b r c' := by
  unfold linK linR
  rw [hB]
  simp only [hS, hN, hDV r, mul_inv_den _ _ (hD r)]

/-- The hidden layers agree as arrays. -/
theorem hiddenK_eq_hiddenR (X A : Arr 100000 128) (DV : Arr 100000 1) (D : Row 100000) (WS WN : Arr 128 128) (B : Arr 1 128) (b : Row 128)
    (hDV : ∀ r, DV (ix2 r 0) = Ideal.div 1 (D (ix1 r))) (hD : ∀ r, D (ix1 r) ≠ 0) (hB : ∀ c, B (ix2 0 c) = b (ix1 c)) :
    hiddenK X A DV WS WN B = hiddenR X A D WS WN b := by
  funext i
  obtain ⟨r, c, rfl⟩ : ∃ (r : Fin 100000) (c : Fin 128), i = ix2 r c := ⟨i 0, i 1, eq_ix2 i⟩
  rw [hiddenK_apply, hiddenR_apply,
    linK_eq_linR_cols X A DV D WS WN B WS WN b hDV hD c c (fun _ => rfl) (fun _ => rfl) (hB c) r]

/-- The whole network: the kernel's arrangement is the reference's. -/
theorem outK_eq_outR (agg : Arr 100000 128 → Arr 100000 128) (D : Row 100000) (DV : Arr 100000 1)
    (X : Arr 100000 128) (NZ : Arr 100000 64) (WS0 WN0 : Arr 128 128) (B0 : Arr 1 128) (b0 : Row 128)
    (WS1 WN1 : Arr 128 64) (b1 : Row 64) (WS2 WN2 : Arr 128 64) (b2 : Row 64) (WScat WNcat : Arr 128 128) (Bcat : Arr 1 128)
    (hDV : ∀ r, DV (ix2 r 0) = Ideal.div 1 (D (ix1 r))) (hD : ∀ r, D (ix1 r) ≠ 0) (hB0 : ∀ c, B0 (ix2 0 c) = b0 (ix1 c))
    (hS1 : ∀ k c, WScat (ix2 k (lo c)) = WS1 (ix2 k c)) (hS2 : ∀ k c, WScat (ix2 k (hi c)) = WS2 (ix2 k c))
    (hN1 : ∀ k c, WNcat (ix2 k (lo c)) = WN1 (ix2 k c)) (hN2 : ∀ k c, WNcat (ix2 k (hi c)) = WN2 (ix2 k c))
    (hb1 : ∀ c, Bcat (ix2 0 (lo c)) = b1 (ix1 c)) (hb2 : ∀ c, Bcat (ix2 0 (hi c)) = b2 (ix1 c)) :
    outK (hiddenK X (agg X) DV WS0 WN0 B0) (agg (hiddenK X (agg X) DV WS0 WN0 B0)) DV WScat WNcat Bcat NZ
      = outR agg D X NZ WS0 WN0 b0 WS1 WN1 b1 WS2 WN2 b2 := by
  rw [hiddenK_eq_hiddenR X (agg X) DV D WS0 WN0 B0 b0 hDV hD hB0]
  funext i
  obtain ⟨r, c, rfl⟩ : ∃ (r : Fin 100000) (c : Fin 64), i = ix2 r c := ⟨i 0, i 1, eq_ix2 i⟩
  rw [outK_apply]
  show _ = linR (hiddenR X (agg X) D WS0 WN0 b0) (agg (hiddenR X (agg X) D WS0 WN0 b0)) D WS1 WN1 b1 r c
    + NZ (ix2 r c) * Ideal.exp (linR (hiddenR X (agg X) D WS0 WN0 b0) (agg (hiddenR X (agg X) D WS0 WN0 b0)) D WS2 WN2 b2 r c)
  rw [linK_eq_linR_cols _ _ DV D WScat WNcat Bcat WS1 WN1 b1 hDV hD (lo c) c (fun k => hS1 k c) (fun k => hN1 k c) (hb1 c) r,
    linK_eq_linR_cols _ _ DV D WScat WNcat Bcat WS2 WN2 b2 hDV hD (hi c) c (fun k => hS2 k c) (fun k => hN2 k c) (hb2 c) r]

end Cert.Sage

end
-- ==== Proof.RefSide.lean ====
/-
  The reference program computes the reference form of the shared specification.

  The reference evaluates the neighbour mean three times, once per layer: rows are gathered along the source endpoints
  of the edges, summed into the destination endpoints, and row r of the sum is divided by max (in-degree r) 1. The
  three evaluations apply the same two operations to the layer's input with the same edge arrays, and the three
  degree vectors are one vector. With the neighbour sum named `agg` and the divisor named `den`, the first layer
  clipped at zero is `hiddenR`, and the result, mean + noise · exp logstd over the two 64-wide layers, is `outR`.
  The gather and the scatter-add themselves are never opened: every statement below holds for whatever they compute.
-/
import proofs.«136242_j24000277250672_2_alg».proof.Proof.Gen.ReferenceIdeal.Read
import proofs.«136242_j24000277250672_2_alg».proof.Proof.Spec
import Idealize.ShloMosaic.Lib.ValueIdx
import Idealize.ShloMosaic.PureOps.Ideal.Laws
import Idealize.ShloMosaic.Lib.IdealHost

noncomputable section

open scoped BigOperators

namespace Cert.RefSide

open Cert.ReferenceIdeal Cert.ReferenceIdeal.Read Idealize.ShloMosaic Idealize.ShloMosaic.ValueIdx Cert.Sage

/-- The node matrices: 100000 rows, 128 columns. -/
abbrev Nodes : Type := (⟨S100000x128, .f32⟩ : BufTy).Contents (Elt Ideal)
/-- An edge endpoint array: one node number per edge. -/
abbrev Edges : Type := (⟨S1600000, .i32⟩ : BufTy).Contents (Elt Ideal)
/-- The noise and the result: 100000 rows, 64 columns. -/
abbrev Outs : Type := (⟨S100000x64, .f32⟩ : BufTy).Contents (Elt Ideal)
/-- The first layer's weights. -/
abbrev W128 : Type := (⟨S128x128, .f32⟩ : BufTy).Contents (Elt Ideal)
/-- An output layer's weights. -/
abbrev W64 : Type := (⟨S128x64, .f32⟩ : BufTy).Contents (Elt Ideal)
/-- The first layer's bias. -/
abbrev B128 : Type := (⟨S128, .f32⟩ : BufTy).Contents (Elt Ideal)
/-- An output layer's bias. -/
abbrev B64 : Type := (⟨S64, .f32⟩ : BufTy).Contents (Elt Ideal)

/-- The neighbour sum of a node matrix: its rows gathered along the source endpoints `x1` and summed into the
    destination endpoints `x2`. -/
def agg (x1 x2 : Edges) : Arr 100000 128 → Arr 100000 128 :=
  fun X => val_main_v9 (F := Ideal) X x1 x2

/-- The divisor of the neighbour mean: max (in-degree) 1, a function of the destination endpoints alone. -/
def den (x2 : Edges) : Row 100000 := val_main_v15 (F := Ideal) x2

/-! ## The three evaluations of the neighbour mean are one function

Each equation compares two terms that differ only in the names of equal constants. -/

/-- The source endpoints are normalised the same way before each gather. -/
theorem src_second (x1 : Edges) : val_main_v31 (F := Ideal) x1 = val_main_v5 (F := Ideal) x1 := rfl
theorem src_third (x1 : Edges) : val_main_v56 (F := Ideal) x1 = val_main_v5 (F := Ideal) x1 := rfl

/-- The second neighbour sum is the first one's operations applied to the hidden layer. -/
theorem agg_second (x0 : Nodes) (x1 x2 : Edges) (x4 x5 : W128) (x6 : B128) :
    val_main_v35 (F := Ideal) x0 x1 x2 x4 x5 x6 = val_main_v9 (F := Ideal) (val_main_v25 (F := Ideal) x0 x1 x2 x4 x5 x6) x1 x2 := rfl
/-- So is the third. -/
theorem agg_third (x0 : Nodes) (x1 x2 : Edges) (x4 x5 : W128) (x6 : B128) :
    val_main_v60 (F := Ideal) x0 x1 x2 x4 x5 x6 = val_main_v9 (F := Ideal) (val_main_v25 (F := Ideal) x0 x1 x2 x4 x5 x6) x1 x2 := rfl

/-- The in-degree is counted the same way each time … -/
theorem deg_second (x2 : Edges) : val_main_v39 (F := Ideal) x2 = val_main_v13 (F := Ideal) x2 := rfl
theorem deg_third (x2 : Edges) : val_main_v64 (F := Ideal) x2 = val_main_v13 (F := Ideal) x2 := rfl
/-- … and so the three divisors are one vector. -/
theorem den_second (x2 : Edges) : val_main_v41 (F := Ideal) x2 = val_main_v15 (F := Ideal) x2 := rfl
theorem den_third (x2 : Edges) : val_main_v66 (F := Ideal) x2 = val_main_v15 (F := Ideal) x2 := rfl

/-- The second neighbour mean is the first one's operations applied to the hidden layer. -/
theorem mean_second (x0 : Nodes) (x1 x2 : Edges) (x4 x5 : W128) (x6 : B128) :
    val_main_v44 (F := Ideal) x0 x1 x2 x4 x5 x6 = val_main_v18 (F := Ideal) (val_main_v25 (F := Ideal) x0 x1 x2 x4 x5 x6) x1 x2 := rfl
/-- So is the third. -/
theorem mean_third (x0 : Nodes) (x1 x2 : Edges) (x4 x5 : W128) (x6 : B128) :
    val_main_v69 (F := Ideal) x0 x1 x2 x4 x5 x6 = val_main_v18 (F := Ideal) (val_main_v25 (F := Ideal) x0 x1 x2 x4 x5 x6) x1 x2 := rfl

/-! ## The stages of one layer at the entry (r, c) -/

/-- The relu's zero is the extended real 0. -/
theorem zero_at (i : S100000x128.Idx) : val_main_call0_v0 (F := Ideal) i = 0 := by
  rw [val_main_call0_v0_apply, val_main_call0_cst_apply, Ideal.ofBits_def, Ideal.ofBits_zero_f32]

/-- The divisor, spread over the columns, is at (r, k) the divisor of row r. -/
theorem den_at (x2 : Edges) (r : Fin 100000) (k : Fin 128) :
    val_main_v17 (F := Ideal) x2 (ix2 r k) = val_main_v15 (F := Ideal) x2 (ix1 r) := by
  rw [val_main_v17_apply, val_main_v16_apply]
  exact congrArg (val_main_v15 (F := Ideal) x2) (funext fun a => Fin.ext (by match a with | ⟨0, _⟩ => rfl))

/-- The neighbour mean of X at (r, k): the neighbour sum there divided by the divisor of row r. -/
theorem mean_at (X : Nodes) (x1 x2 : Edges) (r : Fin 100000) (k : Fin 128) :
    val_main_v18 (F := Ideal) X x1 x2 (ix2 r k)
      = Ideal.div (val_main_v9 (F := Ideal) X x1 x2 (ix2 r k)) (val_main_v15 (F := Ideal) x2 (ix1 r)) := by
  rw [val_main_v18_apply, den_at]
  rfl

/-- The first layer's bias, spread over the rows, is at (r, c) entry c of the bias. -/
theorem bias0_at (x6 : B128) (r : Fin 100000) (c : Fin 128) : val_main_v23 (F := Ideal) x6 (ix2 r c) = x6 (ix1 c) := by
  rw [val_main_v23_apply, val_main_v22_apply]
  exact congrArg x6 (funext fun a => Fin.ext (by match a with | ⟨0, _⟩ => rfl))
/-- The mean layer's bias likewise. -/
theorem bias1_at (x9 : B64) (r : Fin 100000) (c : Fin 64) : val_main_v49 (F := Ideal) x9 (ix2 r c) = x9 (ix1 c) := by
  rw [val_main_v49_apply, val_main_v48_apply]
  exact congrArg x9 (funext fun a => Fin.ext (by match a with | ⟨0, _⟩ => rfl))
/-- The deviation layer's bias likewise. -/
theorem bias2_at (x12 : B64) (r : Fin 100000) (c : Fin 64) : val_main_v74 (F := Ideal) x12 (ix2 r c) = x12 (ix1 c) := by
  rw [val_main_v74_apply, val_main_v73_apply]
  exact congrArg x12 (funext fun a => Fin.ext (by match a with | ⟨0, _⟩ => rfl))

/-- The first layer's product of the input with the self weights at (r, c). -/
theorem self0_at (x0 : Nodes) (x4 : W128) (r : Fin 100000) (c : Fin 128) :
    val_main_v19 (F := Ideal) x0 x4 (ix2 r c) = ∑ k : Fin 128, x0 (ix2 r k) * x4 (ix2 k c) := by
  rw [val_main_v19_apply]
  refine Finset.sum_congr rfl fun k _ => ?_
  have el : lidx_main_v19 (ix2 r c) k = ix2 r k := funext fun a => Fin.ext (by match a with | ⟨0, _⟩ => rfl | ⟨1, _⟩ => rfl)
  have er : ridx_main_v19 (ix2 r c) k = ix2 k c := funext fun a => Fin.ext (by match a with | ⟨0, _⟩ => rfl | ⟨1, _⟩ => rfl)
  rw [el, er]

/-- The first layer's product of the neighbour mean with the neighbour weights at (r, c). -/
theorem neigh0_at (x0 : Nodes) (x1 x2 : Edges) (x5 : W128) (r : Fin 100000) (c : Fin 128) :
    val_main_v20 (F := Ideal) x0 x1 x2 x5 (ix2 r c)
      = ∑ k : Fin 128, Ideal.div (val_main_v9 (F := Ideal) x0 x1 x2 (ix2 r k)) (val_main_v15 (F := Ideal) x2 (ix1 r)) * x5 (ix2 k c) := by
  rw [val_main_v20_apply]
  refine Finset.sum_congr rfl fun k _ => ?_
  have el : lidx_main_v20 (ix2 r c) k = ix2 r k := funext fun a => Fin.ext (by match a with | ⟨0, _⟩ => rfl | ⟨1, _⟩ => rfl)
  have er : ridx_main_v20 (ix2 r c) k = ix2 k c := funext fun a => Fin.ext (by match a with | ⟨0, _⟩ => rfl | ⟨1, _⟩ => rfl)
  rw [el, er, mean_at]

/-- The first layer clipped at zero, entry by entry. -/
theorem hidden_at (x0 : Nodes) (x1 x2 : Edges) (x4 x5 : W128) (x6 : B128) (r : Fin 100000) (c : Fin 128) :
    val_main_v25 (F := Ideal) x0 x1 x2 x4 x5 x6 (ix2 r c)
      = max (linR x0 (val_main_v9 (F := Ideal) x0 x1 x2) (val_main_v15 (F := Ideal) x2) x4 x5 x6 r c) 0 := by
  rw [val_main_v25_apply, val_main_v24_apply, val_main_v21_apply, self0_at, neigh0_at, bias0_at, zero_at]
  rfl

/-- The hidden layer is the specification's. -/
theorem hidden_eq (x0 : Nodes) (x1 x2 : Edges) (x4 x5 : W128) (x6 : B128) :
    val_main_v25 (F := Ideal) x0 x1 x2 x4 x5 x6 = hiddenR x0 (agg x1 x2 x0) (den x2) x4 x5 x6 := by
  funext i
  obtain ⟨r, c, rfl⟩ : ∃ (r : Fin 100000) (c : Fin 128), i = ix2 r c := ⟨i 0, i 1, eq_ix2 i⟩
  exact hidden_at x0 x1 x2 x4 x5 x6 r c

/-! ## The two output layers at the entry (r, c)

Both read the hidden layer H and the neighbour mean of H; only the weights and the bias differ. -/

/-- The mean layer's product of the hidden layer with the self weights at (r, c). -/
theorem self1_at (x0 : Nodes) (x1 x2 : Edges) (x4 x5 : W128) (x6 : B128) (x7 : W64) (r : Fin 100000) (c : Fin 64) :
    val_main_v45 (F := Ideal) x0 x1 x2 x4 x5 x6 x7 (ix2 r c)
      = ∑ k : Fin 128, val_main_v25 (F := Ideal) x0 x1 x2 x4 x5 x6 (ix2 r k) * x7 (ix2 k c) := by
  rw [val_main_v45_apply]
  refine Finset.sum_congr rfl fun k _ => ?_
  have el : lidx_main_v45 (ix2 r c) k = ix2 r k := funext fun a => Fin.ext (by match a with | ⟨0, _⟩ => rfl | ⟨1, _⟩ => rfl)
  have er : ridx_main_v45 (ix2 r c) k = ix2 k c := funext fun a => Fin.ext (by match a with | ⟨0, _⟩ => rfl | ⟨1, _⟩ => rfl)
  rw [el, er]

/-- The mean layer's product of the neighbour mean of the hidden layer with the neighbour weights at (r, c). -/
theorem neigh1_at (x0 : Nodes) (x1 x2 : Edges) (x4 x5 : W128) (x6 : B128) (x8 : W64) (r : Fin 100000) (c : Fin 64) :
    val_main_v46 (F := Ideal) x0 x1 x2 x4 x5 x6 x8 (ix2 r c)
      = ∑ k : Fin 128, Ideal.div (val_main_v9 (F := Ideal) (val_main_v25 (F := Ideal) x0 x1 x2 x4 x5 x6) x1 x2 (ix2 r k))
          (val_main_v15 (F := Ideal) x2 (ix1 r)) * x8 (ix2 k c) := by
  rw [val_main_v46_apply]
  refine Finset.sum_congr rfl fun k _ => ?_
  have el : lidx_main_v46 (ix2 r c) k = ix2 r k := funext fun a => Fin.ext (by match a with | ⟨0, _⟩ => rfl | ⟨1, _⟩ => rfl)
  have er : ridx_main_v46 (ix2 r c) k = ix2 k c := funext fun a => Fin.ext (by match a with | ⟨0, _⟩ => rfl | ⟨1, _⟩ => rfl)
  rw [el, er, mean_second, mean_at]

/-- The mean layer, entry by entry. -/
theorem mean_layer_at (x0 : Nodes) (x1 x2 : Edges) (x4 x5 : W128) (x6 : B128) (x7 x8 : W64) (x9 : B64) (r : Fin 100000) (c : Fin 64) :
    val_main_v50 (F := Ideal) x0 x1 x2 x4 x5 x6 x7 x8 x9 (ix2 r c)
      = linR (val_main_v25 (F := Ideal) x0 x1 x2 x4 x5 x6)
          (val_main_v9 (F := Ideal) (val_main_v25 (F := Ideal) x0 x1 x2 x4 x5 x6) x1 x2) (val_main_v15 (F := Ideal) x2) x7 x8 x9 r c := by
  rw [val_main_v50_apply, val_main_v47_apply, self1_at, neigh1_at, bias1_at]
  rfl

/-- The deviation layer's product of the hidden layer with the self weights at (r, c). -/
theorem self2_at (x0 : Nodes) (x1 x2 : Edges) (x4 x5 : W128) (x6 : B128) (x10 : W64) (r : Fin 100000) (c : Fin 64) :
    val_main_v70 (F := Ideal) x0 x1 x2 x4 x5 x6 x10 (ix2 r c)
      = ∑ k : Fin 128, val_main_v25 (F := Ideal) x0 x1 x2 x4 x5 x6 (ix2 r k) * x10 (ix2 k c) := by
  rw [val_main_v70_apply]
  refine Finset.sum_congr rfl fun k _ => ?_
  have el : lidx_main_v70 (ix2 r c) k = ix2 r k := funext fun a => Fin.ext (by match a with | ⟨0, _⟩ => rfl | ⟨1, _⟩ => rfl)
  have er : ridx_main_v70 (ix2 r c) k = ix2 k c := funext fun a => Fin.ext (by match a with | ⟨0, _⟩ => rfl | ⟨1, _⟩ => rfl)
  rw [el, er]

/-- The deviation layer's product of the neighbour mean of the hidden layer with the neighbour weights at (r, c). -/
theorem neigh2_at (x0 : Nodes) (x1 x2 : Edges) (x4 x5 : W128) (x6 : B128) (x11 : W64) (r : Fin 100000) (c : Fin 64) :
    val_main_v71 (F := Ideal) x0 x1 x2 x4 x5 x6 x11 (ix2 r c)
      = ∑ k : Fin 128, Ideal.div (val_main_v9 (F := Ideal) (val_main_v25 (F := Ideal) x0 x1 x2 x4 x5 x6) x1 x2 (ix2 r k))
          (val_main_v15 (F := Ideal) x2 (ix1 r)) * x11 (ix2 k c) := by
  rw [val_main_v71_apply]
  refine Finset.sum_congr rfl fun k _ => ?_
  have el : lidx_main_v71 (ix2 r c) k = ix2 r k := funext fun a => Fin.ext (by match a with | ⟨0, _⟩ => rfl | ⟨1, _⟩ => rfl)
  have er : ridx_main_v71 (ix2 r c) k = ix2 k c := funext fun a => Fin.ext (by match a with | ⟨0, _⟩ => rfl | ⟨1, _⟩ => rfl)
  rw [el, er, mean_third, mean_at]

/-- The deviation layer (the logarithm of the deviation), entry by entry. -/
theorem dev_layer_at (x0 : Nodes) (x1 x2 : Edges) (x4 x5 : W128) (x6 : B128) (x10 x11 : W64) (x12 : B64) (r : Fin 100000) (c : Fin 64) :
    val_main_v75 (F := Ideal) x0 x1 x2 x4 x5 x6 x10 x11 x12 (ix2 r c)
      = linR (val_main_v25 (F := Ideal) x0 x1 x2 x4 x5 x6)
          (val_main_v9 (F := Ideal) (val_main_v25 (F := Ideal) x0 x1 x2 x4 x5 x6) x1 x2) (val_main_v15 (F := Ideal) x2) x10 x11 x12 r c := by
  rw [val_main_v75_apply, val_main_v72_apply, self2_at, neigh2_at, bias2_at]
  rfl

/-! ## The result -/

/-- The result at (r, c): the mean plus the noise times the exponential of the deviation layer. -/
theorem out_at (x0 : Nodes) (x1 x2 : Edges) (x3 : Outs) (x4 x5 : W128) (x6 : B128) (x7 x8 : W64) (x9 : B64) (x10 x11 : W64) (x12 : B64)
    (r : Fin 100000) (c : Fin 64) :
    val_main_v78 (F := Ideal) x0 x1 x2 x3 x4 x5 x6 x7 x8 x9 x10 x11 x12 (ix2 r c)
      = linR (val_main_v25 (F := Ideal) x0 x1 x2 x4 x5 x6)
          (val_main_v9 (F := Ideal) (val_main_v25 (F := Ideal) x0 x1 x2 x4 x5 x6) x1 x2) (val_main_v15 (F := Ideal) x2) x7 x8 x9 r c
        + x3 (ix2 r c) * Ideal.exp (linR (val_main_v25 (F := Ideal) x0 x1 x2 x4 x5 x6)
          (val_main_v9 (F := Ideal) (val_main_v25 (F := Ideal) x0 x1 x2 x4 x5 x6) x1 x2) (val_main_v15 (F := Ideal) x2) x10 x11 x12 r c) := by
  rw [val_main_v78_apply, val_main_v77_apply, val_main_v76_apply, mean_layer_at, dev_layer_at]
  rfl

/-- THE REFERENCE IS THE SPECIFICATION'S REFERENCE FORM, over its own neighbour sum and divisor. -/
theorem ref_eq (x0 : Nodes) (x1 x2 : Edges) (x3 : Outs) (x4 x5 : W128) (x6 : B128) (x7 x8 : W64) (x9 : B64) (x10 x11 : W64) (x12 : B64) :
    val_main_v78 (F := Ideal) x0 x1 x2 x3 x4 x5 x6 x7 x8 x9 x10 x11 x12
      = outR (agg x1 x2) (den x2) x0 x3 x4 x5 x6 x7 x8 x9 x10 x11 x12 := by
  funext i
  obtain ⟨r, c, rfl⟩ : ∃ (r : Fin 100000) (c : Fin 64), i = ix2 r c := ⟨i 0, i 1, eq_ix2 i⟩
  rw [out_at, hidden_eq]
  rfl

/-! ## The divisor is not zero -/

/-- The word of the constant the in-degree is clipped at is the extended real one. -/
theorem one_word : Ideal.ofBits .f32 0x3F800000#32 = 1 := Ideal.ofBits_one_f32

/-- The divisor is a maximum with the constant one, so it is at least one … -/
theorem one_le_den (x2 : Edges) (i : S100000.Idx) : 1 ≤ den x2 i := by
  unfold den
  rw [val_main_v15_apply, val_main_v14_apply, val_main_cst_3_apply, Ideal.maximumf_def, Ideal.ofBits_def, one_word]
  exact le_max_right _ _

/-- … and in particular it is not zero: dividing by it is multiplying by its reciprocal. -/
theorem den_ne_zero (x2 : Edges) (r : Fin 100000) : den x2 (ix1 r) ≠ 0 := fun h =>
  absurd (h ▸ one_le_den x2 (ix1 r)) (not_le.mpr zero_lt_one)

end Cert.RefSide

end
-- ==== Proof.KernelValue.lean ====
/-
  The idealized kernel's result as a function of the launch memory.

  The result array is what the second call's write-backs leave: the 128-wide layer of the hidden layer H, read at
  columns c and c + 64, where H is what the first call's write-backs left — the clipped layer of the features — and both
  calls find their operand arrays as the host stretches built them from the arguments. Putting the two calls and the
  two host stretches together gives the kernel's arrangement of the network, which equals the reference's arrangement
  of it entry by entry: the reciprocal column against the division (the clipped degree is at least 1), the bias row
  against the bias vector, and the side-by-side weights against the separate ones.
-/
import proofs.«136242_j24000277250672_2_alg».proof.Proof.HostValue
import proofs.«136242_j24000277250672_2_alg».proof.Proof.Region0
import proofs.«136242_j24000277250672_2_alg».proof.Proof.Region1
import proofs.«136242_j24000277250672_2_alg».proof.Proof.Pay0
import proofs.«136242_j24000277250672_2_alg».proof.Proof.Pay1
import proofs.«136242_j24000277250672_2_alg».proof.Proof.HostIdx
import proofs.«136242_j24000277250672_2_alg».proof.Proof.Bridge
import proofs.«136242_j24000277250672_2_alg».proof.Proof.RefSide

set_option maxRecDepth 16384

noncomputable section

namespace Cert.KernelIdeal.KernelValue

open Cert.KernelIdeal Cert.KernelIdeal.Gen Cert.Sage
open Idealize.ShloMosaic Idealize.ShloMosaic.TcCoe Idealize.ShloMosaic.ValueIdx Idealize.SL.Sem

variable (m : (ℓ : Loc nD τ sig) → Buf (Elt Ideal) ℓ) (ρ : Dev nD → PrngReg)

/-- The network's result in the reference's arrangement, of the argument arrays in the launch memory. -/
def spec (c : Dev nD) : Arr 100000 64 :=
  outR (Cert.RefSide.agg (m ((c : Thread nD τ).loc main_arg1)) (m ((c : Thread nD τ).loc main_arg2))) (Cert.RefSide.den (m ((c : Thread nD τ).loc main_arg2)))
    (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

/-- What the last boundary's contents hold at the result array. -/
theorem result_eq (c : Dev nD) : W4 m ρ c (Proc.devRef .tc main_v38) = spec m c := by
  refine (W4_arr m ρ c 7).trans ?_
  refine (Region1.final (V3 m ρ) Cert.Pay.pay1_apply c).trans ?_
  rw [HostValue.V3_v22 m ρ c, HostValue.V3_v33 m ρ c, HostValue.V3_v8 m ρ c, HostValue.V3_v34 m ρ c, HostValue.V3_v35 m ρ c,
    HostValue.V3_v37 m ρ c, HostValue.V3_arg3 m ρ c, Region0.final (V1 m ρ) Cert.Pay.pay0_apply c,
    HostValue.V1_arg0 m ρ c, HostValue.V1_v20 m ρ c, HostValue.V1_arg4 m ρ c, HostValue.V1_arg5 m ρ c,
    HostValue.V1_v8 m ρ c, HostValue.V1_v21 m ρ c]
  exact outK_eq_outR (Cert.RefSide.agg (m ((c : Thread nD τ).loc main_arg1)) (m ((c : Thread nD τ).loc main_arg2))) (Cert.RefSide.den (m ((c : Thread nD τ).loc main_arg2))) _
    (m ((c : Thread nD τ).loc main_arg0)) (m ((c : Thread nD τ).loc main_arg3)) (m ((c : Thread nD τ).loc main_arg4)) (m ((c : Thread nD τ).loc main_arg5)) _ (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) _ _ _
    (fun r => Cert.HostIdx.recipColumn_apply _ _ _ r)
    (fun r => Cert.RefSide.den_ne_zero _ r)
    (fun q => Cert.HostIdx.biasRow_apply _ _ q)
    (fun k q => Cert.HostIdx.concatCols_lo_apply _ _ _ k q) (fun k q => Cert.HostIdx.concatCols_hi_apply _ _ _ k q)
    (fun k q => Cert.HostIdx.concatCols_lo_apply _ _ _ k q) (fun k q => Cert.HostIdx.concatCols_hi_apply _ _ _ k q)
    (fun q => Cert.HostIdx.concatRow_lo_apply _ _ _ _ q) (fun q => Cert.HostIdx.concatRow_hi_apply _ _ _ _ q)

end Cert.KernelIdeal.KernelValue

end
-- ==== Proof.lean ====
/-
  The certificate of a two-layer graph network with a sampled output: a tiled kernel against its plain reference.

  Both programs compute, for 100000 nodes and 1600000 directed edges,
      H      = max (X · Ws₀ + mean_nb X · Wn₀ + b₀) 0
      result = (H · Ws₁ + mean_nb H · Wn₁ + b₁) + noise · exp (H · Ws₂ + mean_nb H · Wn₂ + b₂),
  where mean_nb Y at node r is the sum of Y's rows over the edges into r divided by max (in-degree r) 1. The sum over
  edges (a gather along the source list and a scatter-add into the destination list) is done by the same host operations
  in both programs, on the same operands, and is never opened. The programs differ in three ways, none of which changes
  an extended real: the kernel rounds operands to a narrower format on the way into its products and gathers (the
  identity on extended reals); it multiplies by the reciprocal of the clipped degree where the reference divides by the
  clipped degree (equal because the clipped degree is at least 1, hence nonzero: x · (1/d) = x · d⁻¹ = x / d); and it
  computes the last two layers as one 128-wide layer over the weights side by side, reading columns c and c + 64. The
  sums are the same sums in the same order of terms, so no law of addition is used and the precondition (finite inputs)
  is never opened.

  The kernel is two tiled calls, each over 50 blocks of 2000 node rows, with host operations before and between them.
  Each call's output array is read block by block and the blocks tile it; the host stretches are read as functions of
  the launch memory; the run through the four segments gives the result array at the last boundary's contents. The
  reference's run and its operations read at an index are imported.
-/
import proofs.«136242_j24000277250672_2_alg».proof.Defs
import proofs.«136242_j24000277250672_2_alg».proof.Proof.Gen.Kernel
import proofs.«136242_j24000277250672_2_alg».proof.Proof.Gen.Kernel.Frame
import proofs.«136242_j24000277250672_2_alg».proof.Proof.Gen.KernelIdeal
import proofs.«136242_j24000277250672_2_alg».proof.Proof.Gen.KernelIdeal.Frame
import proofs.«136242_j24000277250672_2_alg».proof.Proof.Gen.ReferenceIdeal
import proofs.«136242_j24000277250672_2_alg».proof.Proof.Gen.Pre_finite_inputs
import proofs.«136242_j24000277250672_2_alg».proof.Proof.Gen.ReferenceIdeal.Run
import proofs.«136242_j24000277250672_2_alg».proof.Proof.Gen.ReferenceIdeal.Read
import proofs.«136242_j24000277250672_2_alg».proof.Proof.KernelRun
import proofs.«136242_j24000277250672_2_alg».proof.Proof.KernelValue
import proofs.«136242_j24000277250672_2_alg».proof.Proof.RefSide
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments as launched. -/
theorem frame_kernel : @Cert.frame_Kernel Cert.Kernel.Gen.facts Cert.Pre_finite_inputs.Gen.facts :=
  fun m ρ _ => Cert.Kernel.Gen.frame m ρ

/-- So does the idealized kernel. -/
theorem frame_kernelIdeal : @Cert.frame_KernelIdeal Cert.KernelIdeal.Gen.facts Cert.Pre_finite_inputs.Gen.facts :=
  fun m ρ _ => Cert.KernelIdeal.Gen.frame m ρ

/-- The reference has no tiled call: its frame is its run with the result dropped. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories that agree on the arguments both programs end with the same result array: the network in the
    reference's arrangement, of the arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.KernelValue.spec m c, ?_, ?_⟩
  · exact (θ_run Cert.KernelIdeal.defs _ _).mono (fun r h c => ⟨(h c).1.trans (Cert.KernelIdeal.KernelValue.result_eq m ρ c), (h c).2⟩)
      (Cert.KernelIdeal.RunValue.run_main m ρ)
  · refine (θ_run Cert.ReferenceIdeal.defs _ _).mono (fun _ h c => ⟨(h c).1.trans ?_, (h c).2⟩) (Cert.ReferenceIdeal.Value.run (F := Ideal) m' ρ')
    obtain ⟨e0, e1, e2, e3, e4, e5, e6, e7, e8, e9, e10, e11, e12⟩ := hagree c
    rw [Cert.ReferenceIdeal.Read.val_main_v78_eq, Cert.RefSide.ref_eq, e0, e1, e2, e3, e4, e5, e6, e7, e8, e9, e10, e11, e12]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
